-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2 : Shape := ⟨2, ![2048, 2]⟩
abbrev S2x32 : Shape := ⟨2, ![2, 32]⟩
abbrev S32 : Shape := ⟨1, ![32]⟩
abbrev S32x32 : Shape := ⟨2, ![32, 32]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S2048x128 .f32) (main_arg1 : FVec F S2048x2 .f32) (main_arg2 : FVec F S2x32 .f32) (main_arg3 : FVec F S32 .f32) (main_arg4 : FVec F S32x32 .f32) (main_arg5 : FVec F S32 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S2048x128 : Shape := ⟨2, ![2048, 128]⟩
abbrev S2048x2 : Shape := ⟨2, ![2048, 2]⟩
abbrev S2x32 : Shape := ⟨2, ![2, 32]⟩
abbrev S32 : Shape := ⟨1, ![32]⟩
abbrev S32x32 : Shape := ⟨2, ![32, 32]⟩
abbrev S1x32 : Shape := ⟨2, ![1, 32]⟩
abbrev S2048x65536 : Shape := ⟨2, ![2048, 65536]⟩
abbrev S128x2 : Shape := ⟨2, ![128, 2]⟩
abbrev S128x4096 : Shape := ⟨2, ![128, 4096]⟩
abbrev S128x1 : Shape := ⟨2, ![128, 1]⟩
abbrev S128 : Shape := ⟨1, ![128]⟩
abbrev S1x128 : Shape := ⟨2, ![1, 128]⟩
abbrev S128x128 : Shape := ⟨2, ![128, 128]⟩
abbrev S128x128x1 : Shape := ⟨3, ![128, 128, 1]⟩
abbrev S1x1x32 : Shape := ⟨3, ![1, 1, 32]⟩
abbrev S128x128x32 : Shape := ⟨3, ![128, 128, 32]⟩
abbrev S16384x32 : Shape := ⟨2, ![16384, 32]⟩
abbrev S2048x2048x32 : Shape := ⟨3, ![2048, 2048, 32]⟩

abbrev nBuf : Space → Nat
  | .hbm => 10
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S2048x2, .f32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S2048x65536, .f32⟩
  | .hbm, ⟨9, _⟩ => ⟨S2048x2048x32, .f32⟩
  | .local _ .vmem, ⟨0, _⟩ => ⟨S128x2, .f32⟩
  | .local _ .vmem, ⟨1, _⟩ => ⟨S128x2, .f32⟩
  | .local _ .vmem, ⟨2, _⟩ => ⟨S128x2, .f32⟩
  | .local _ .vmem, ⟨3, _⟩ => ⟨S128x2, .f32⟩
  | .local _ .vmem, ⟨4, _⟩ => ⟨S2x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S128x4096, .f32⟩
  | .local _ .vmem, ⟨9, _⟩ => ⟨S128x4096, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  inb_S128x2_S128x2_0_0 : ∀ a, (![0, 0] : Fin 2 → Nat) a + S128x2.size a ≤ S128x2.size a
  h_S128x2 : 0 < S128x2.numel
  slices_S128x2_o0_0_S128x1 : S128x2.Slices ![0, 0] S128x1
  slices_S128x2_o0_1_S128x1 : S128x2.Slices ![0, 1] S128x1
  shapeCasts_S128x1_S128 : S128x1.ShapeCasts S128
  shapeCasts_S128_S1x128 : S128.ShapeCasts S1x128
  broadcasts_S1x128_S128x128 : S1x128.Broadcasts S128x128
  broadcasts_S128x1_S128x128 : S128x1.Broadcasts S128x128
  iota_S128x128_d0_w32 : S128x128.Iotas .tc 32 [0]
  iota_S128x128_d1_w32 : S128x128.Iotas .tc 32 [1]
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S32 : S1x32.ShapeCasts S32
  slices_S2x32_o0_0_S1x32 : S2x32.Slices ![0, 0] S1x32
  slices_S2x32_o1_0_S1x32 : S2x32.Slices ![1, 0] S1x32
  shapeCasts_S128x128_S128x128x1 : S128x128.ShapeCasts S128x128x1
  shapeCasts_S32_S1x1x32 : S32.ShapeCasts S1x1x32
  broadcasts_S128x128x1_S128x128x32 : S128x128x1.Broadcasts S128x128x32
  broadcasts_S1x1x32_S128x128x32 : S1x1x32.Broadcasts S128x128x32
  shapeCasts_S128x128x32_S16384x32 : S128x128x32.ShapeCasts S16384x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  broadcasts_S1x32_S16384x32 : S1x32.Broadcasts S16384x32
  shapeCasts_S16384x32_S128x128x32 : S16384x32.ShapeCasts S128x128x32
  natLt_1_32 : 1 < 32
  shapeCasts_S128x128x32_S128x4096 : S128x128x32.ShapeCasts S128x4096
  inb_S128x4096_S128x4096_0_0 : ∀ a, (![0, 0] : Fin 2 → Nat) a + S128x4096.size a ≤ S128x4096.size a
  h_S128x4096 : 0 < S128x4096.numel
  shapeCasts_S2048x65536_S2048x2048x32 : S2048x65536.ShapeCasts S2048x2048x32
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2.size a ≤ S2048x2.size a
  hwx0_0 : ∀ i : grid0.Coords, EltTy.bits .f32 = 32 ∨ (Rect.block (s := S2048x2) S128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S2048x2.size a
  hwx0_1 : ∀ i : grid0.Coords, EltTy.bits .f32 = 32 ∨ (Rect.block (s := S2048x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x32.size a ≤ S2x32.size a
  hwx0_2 : ∀ i : grid0.Coords, EltTy.bits .f32 = 32 ∨ (Rect.block (s := S2x32) S2x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S2048x65536.size a
  hwx0_6 : ∀ i : grid0.Coords, EltTy.bits .f32 = 32 ∨ (Rect.block (s := S2048x65536) S128x4096.size (cc0_transform_6 i) (hinb0_6 i)).WholeWords (EltTy.packing .f32)

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_arg1) S128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x2 : Shape := ⟨2, ![2048, 2]⟩
abbrev S2x32 : Shape := ⟨2, ![2, 32]⟩
abbrev S32 : Shape := ⟨1, ![32]⟩
abbrev S32x32 : Shape := ⟨2, ![32, 32]⟩
abbrev S1x2048x2 : Shape := ⟨3, ![1, 2048, 2]⟩
abbrev S2048x1x2 : Shape := ⟨3, ![2048, 1, 2]⟩
abbrev S2048x2048x2 : Shape := ⟨3, ![2048, 2048, 2]⟩
abbrev S_ : Shape := ⟨0, ![]⟩
abbrev S2048x2048 : Shape := ⟨2, ![2048, 2048]⟩
abbrev S2048x2048x32 : Shape := ⟨3, ![2048, 2048, 32]⟩
abbrev S1x1x32 : Shape := ⟨3, ![1, 1, 32]⟩
abbrev S2048x2048x1 : Shape := ⟨3, ![2048, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2, .f32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x2048x2, .f32⟩
  | .hbm, ⟨7, _⟩ => ⟨S2048x1x2, .f32⟩
  | .hbm, ⟨8, _⟩ => ⟨S2048x2048x2, .f32⟩
  | .hbm, ⟨9, _⟩ => ⟨S2048x2048x2, .f32⟩
  | .hbm, ⟨10, _⟩ => ⟨S2048x2048x2, .f32⟩
  | .hbm, ⟨11, _⟩ => ⟨S2048x2048x2, .f32⟩
  | .hbm, ⟨12, _⟩ => ⟨S_, .f32⟩
  | .hbm, ⟨13, _⟩ => ⟨S2048x2048, .f32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S2048x2048, .i1⟩
  | .hbm, ⟨24, _⟩ => ⟨S2048x2048, .i1⟩
  | .hbm, ⟨25, _⟩ => ⟨S2048x2048x32, .f32⟩
  | .hbm, ⟨26, _⟩ => ⟨S1x1x32, .f32⟩
  | .hbm, ⟨27, _⟩ => ⟨S2048x2048x32, .f32⟩
  | .hbm, ⟨28, _⟩ => ⟨S2048x2048x32, .f32⟩
  | .hbm, ⟨29, _⟩ => ⟨S_, .f32⟩
  | .hbm, ⟨30, _⟩ => ⟨S2048x2048x32, .f32⟩
  | .hbm, ⟨31, _⟩ => ⟨S2048x2048x32, .f32⟩
  | .hbm, ⟨32, _⟩ => ⟨S2048x2048x32, .f32⟩
  | .hbm, ⟨33, _⟩ => ⟨S1x1x32, .f32⟩
  | .hbm, ⟨34, _⟩ => ⟨S2048x2048x32, .f32⟩
  | .hbm, ⟨35, _⟩ => ⟨S2048x2048x32, .f32⟩
  | .hbm, ⟨36, _⟩ => ⟨S2048x2048x1, .i1⟩
  | .hbm, ⟨37, _⟩ => ⟨S2048x2048x1, .f32⟩
  | .hbm, ⟨38, _⟩ => ⟨S2048x2048x32, .f32⟩
  | .hbm, ⟨39, _⟩ => ⟨S2048x2048x32, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S2048x2_S1x2048x2_1_2 : S2048x2.BroadcastsInDim S1x2048x2 (![1, 2] : Fin 2 → Fin S1x2048x2.rank)
  bcast_S2048x2_S2048x1x2_0_2 : S2048x2.BroadcastsInDim S2048x1x2 (![0, 2] : Fin 2 → Fin S2048x1x2.rank)
  bcast_S1x2048x2_S2048x2048x2_0_1_2 : S1x2048x2.BroadcastsInDim S2048x2048x2 (![0, 1, 2] : Fin 3 → Fin S2048x2048x2.rank)
  bcast_S2048x1x2_S2048x2048x2_0_1_2 : S2048x1x2.BroadcastsInDim S2048x2048x2 (![0, 1, 2] : Fin 3 → Fin S2048x2048x2.rank)
  reducesTo_S2048x2048x2_S2048x2048_d2 : S2048x2048x2.ReducesTo [2] S2048x2048
  h_S_ : 0 < S_.numel
  bcast_S_S2048x2048 : S_.BroadcastsInDim S2048x2048 (![] : Fin 0 → Fin S2048x2048.rank)
  bcast_S32_S1x1x32_2 : S32.BroadcastsInDim S1x1x32 (![2] : Fin 1 → Fin S1x1x32.rank)
  bcast_S1x1x32_S2048x2048x32_0_1_2 : S1x1x32.BroadcastsInDim S2048x2048x32 (![0, 1, 2] : Fin 3 → Fin S2048x2048x32.rank)
  bcast_S_S2048x2048x32 : S_.BroadcastsInDim S2048x2048x32 (![] : Fin 0 → Fin S2048x2048x32.rank)
  bcast_S2048x2048_S2048x2048x1_0_1 : S2048x2048.BroadcastsInDim S2048x2048x1 (![0, 1] : Fin 2 → Fin S2048x2048x1.rank)
  bcast_S2048x2048x1_S2048x2048x32_0_1_2 : S2048x2048x1.BroadcastsInDim S2048x2048x32 (![0, 1, 2] : Fin 3 → Fin S2048x2048x32.rank)
  dot_S2048x2048x2_S2x32_S2048x2048x32_2_0_01_1_n_n_wf : DotDims.WF S2048x2048x2 S2x32 S2048x2048x32 [2] [0] [0, 1] [1] [] []
  dot_S2048x2048x32_S32x32_S2048x2048x32_2_0_01_1_n_n_wf : DotDims.WF S2048x2048x32 S32x32 S2048x2048x32 [2] [0] [0, 1] [1] [] []

variable [Facts₀]

def dot_S2048x2048x2_S2x32_S2048x2048x32_2_0_01_1_n_n : DotDims S2048x2048x2 S2x32 S2048x2048x32 where
  lhsContracting := [2]
  rhsContracting := [0]
  lhsNonContracting := [0, 1]
  rhsNonContracting := [1]
  lhsBatch := []
  rhsBatch := []
  wf := dot_S2048x2048x2_S2x32_S2048x2048x32_2_0_01_1_n_n_wf
def dot_S2048x2048x32_S32x32_S2048x2048x32_2_0_01_1_n_n : DotDims S2048x2048x32 S32x32 S2048x2048x32 where
  lhsContracting := [2]
  rhsContracting := [0]
  lhsNonContracting := [0, 1]
  rhsNonContracting := [1]
  lhsBatch := []
  rhsBatch := []
  wf := dot_S2048x2048x32_S32x32_S2048x2048x32_2_0_01_1_n_n_wf

class Facts : Prop extends Facts₀ where

variable [Facts]
-- ==== Proof.TileBodyK.lean ====
/-
  The kernel body at one grid point, as a statement about memory.

  The body reads six staged blocks — the source rows' positions, the destination rows' positions, the two
  weight matrices and the two bias rows — each through the rectangle that is the whole staging buffer, and
  writes one value, the 128 × 4096 tile of edge features, over the whole output staging buffer. So after the
  body the output buffer holds exactly that value (`tileOut`): the single store covers the buffer, and the
  contents it had before are gone. The inputs are left as they were.
-/
import proofs.«127819_j63471026700851_2_alg».proof.Proof.Gen.Kernel.Launch
import proofs.«127819_j63471026700851_2_alg».proof.Proof.Gen.Kernel.Skeleton
import proofs.«127819_j63471026700851_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is a whole staging buffer -/

abbrev rPos : Rect S128x2 := Rect.unit (s := S128x2) ![0, 0] S128x2.size inb_S128x2_S128x2_0_0
abbrev rW1 : Rect S2x32 := Rect.unit (s := S2x32) ![0, 0] S2x32.size inb_S2x32_S2x32_0_0
abbrev rRow : Rect S1x32 := Rect.unit (s := S1x32) ![0, 0] S1x32.size inb_S1x32_S1x32_0_0
abbrev rW2 : Rect S32x32 := Rect.unit (s := S32x32) ![0, 0] S32x32.size inb_S32x32_S32x32_0_0
abbrev rTile : Rect S128x4096 := Rect.unit (s := S128x4096) ![0, 0] S128x4096.size inb_S128x4096_S128x4096_0_0

/-- The value the body stores at grid point `i`, from the six blocks it loaded: source positions `xs`,
    destination positions `xd`, first-layer weights `w1` and bias row `b1`, second-layer weights `w2` and bias
    row `b2`. -/
def stored (i : grid0.Coords) (xs xd : Vec F S128x2 .f32) (w1 : Vec F S2x32 .f32) (b1 : Vec F S1x32 .f32)
    (w2 : Vec F S32x32 .f32) (b2 : Vec F S1x32 .f32) : Vec F S128x4096 .f32 :=
  k0_pay1 (k0_pay4 i xs xd) (k0_pay5 b1) (k0_pay6 xs xd w1) (k0_pay7 w1) (k0_pay8 xs xd) w2 b2

/-- The output staging buffer after the body: its one store, over the whole buffer. -/
def tileOut (i : grid0.Coords) (xs xd : Vec F S128x2 .f32) (w1 : Vec F S2x32 .f32) (b1 : Vec F S1x32 .f32)
    (w2 : Vec F S32x32 .f32) (b2 : Vec F S1x32 .f32) : Vec F S128x4096 .f32 :=
  View.canon [⟨rTile, stored i (View.ld xs rPos) (View.ld xd rPos) (View.ld w1 rW1) (View.ld b1 rRow) (View.ld w2 rW2) (View.ld b2 rRow)⟩]

/-- The one store's rectangle is the buffer, so every index of the buffer lies in it. -/
theorem tile_cover (p : Vec F S128x4096 .f32) (y : S128x4096.Idx) :
    ∃ pc ∈ ([⟨rTile, p⟩] : List (View.Piece (Elt F) S128x4096 .f32)), y ∈ pc.1.set :=
  View.cover_of_tiled [⟨rTile, p⟩] S128x4096.size (by rfl) y

/-! ## The body's triple -/

set_option maxHeartbeats 1000000 in
/-- On whole staging memrefs, the six inputs held at contents `xs … b2` and the output at anything, the body runs
    to its continuation with the inputs as they were and the output at `tileOut`. -/
theorem body_triple (c : Dev nD) (E : Set ℕ) (i : grid0.Coords)
    (a2 : Memref sig .tc .vmem S128x2 .f32) (h2 : a2.IsWhole) (a3 : Memref sig .tc .vmem S128x2 .f32) (h3 : a3.IsWhole)
    (a4 : Memref sig .tc .vmem S2x32 .f32) (h4 : a4.IsWhole) (a5 : Memref sig .tc .vmem S1x32 .f32) (h5 : a5.IsWhole)
    (a6 : Memref sig .tc .vmem S32x32 .f32) (h6 : a6.IsWhole) (a7 : Memref sig .tc .vmem S1x32 .f32) (h7 : a7.IsWhole)
    (a8 : Memref sig .tc .vmem S128x4096 .f32) (h8 : a8.IsWhole)
    (xs xd : Vec F S128x2 .f32) (w1 : Vec F S2x32 .f32) (b1 : Vec F S1x32 .f32) (w2 : Vec F S32x32 .f32) (b2 : Vec F S1x32 .f32)
    (K : PUnit → sProp 𝕄) :
    iprop(owns (c : Thread nD τ) a2 fullShare xs ∗ owns (c : Thread nD τ) a3 fullShare xd ∗ owns (c : Thread nD τ) a4 fullShare w1
        ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a2 fullShare xs ∗ owns (c : Thread nD τ) a3 fullShare xd ∗ owns (c : Thread nD τ) a4 fullShare w1
            ∗ owns (c : Thread nD τ) a5 fullShare b1 ∗ owns (c : Thread nD τ) a6 fullShare w2 ∗ owns (c : Thread nD τ) a7 fullShare b2
            ∗ owns (c : Thread nD τ) a8 fullShare (tileOut i xs xd w1 b1 w2 b2)) -∗ K ⟨⟩))
      ⊢ wp frame (wpE (defs₀ (F := F)) Variants.none c none) E (cc0__edge_kernel i a2 h2 a3 h3 a4 h4 a5 h5 a6 h6 a7 h7 a8 h8) K := by
  simp only [cc0__edge_kernel_eq_skeleton]; unfold cc0__edge_kernel_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e2 e3 e4 e5 e6 e7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (tile_cover _)

end Cert.Kernel.Tile

end
-- ==== Proof.TileDatK.lean ====
/-
  The pipeline's proof data for the one kernel region, at whatever the TensorCore's buffers hold when the
  region is entered (`V`).

  Every input window's staging buffer holds, when the body runs at a grid point, that window's block of its
  array at the point — freshly fetched, or left there from an earlier point at which the block index was the
  same. The position array is read through two windows (the source rows' block and the destination rows'
  block), so the region holds it at two half shares, one per window; every other input array is held whole.
  After the body the input buffers are as they were and the output buffer holds the tile `tileOut` of the six
  blocks. With that, the body's triple is the library's body obligation at every point.
-/
import proofs.«127819_j63471026700851_2_alg».proof.Proof.TileBodyK

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The share of its array each input window holds: the two windows on the position array a half each. -/
def winShare : Fin cfg0.W → PosShare TreeShare
  | ⟨0, _⟩ => fullShare.left
  | ⟨1, _⟩ => fullShare.right
  | _ => fullShare

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => tileOut (grid0.coords t) (iblk V c 0 t) (iblk V c 1 t) (iblk V c 2 t) (iblk V c 3 t) (iblk V c 4 t) (iblk V c 5 t)
  Φ _ := Pipeline.ΦA spec0 c
  q := winShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = tileOut (grid0.coords t) (iblk V c 0 t) (iblk V c 1 t) (iblk V c 2 t) (iblk V c 3 t) (iblk V c 4 t) (iblk V c 5 t) := by
  dsimp only [dat]

/-- An input window the body only reads holds its block at every point: where it is not fetched the block index
    has not moved since the point that fetched it. One statement per input window (the window a numeral, so that its
    block's shape is the literal one). -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [dat_A]; try rfl) t d).trans
    (by unfold Dat.fetched Dat.blockOf iblk; rw [dat_A]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [dat_A]; try rfl) t d).trans
    (by unfold Dat.fetched Dat.blockOf iblk; rw [dat_A]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [dat_A]; try rfl) t d).trans
    (by unfold Dat.fetched Dat.blockOf iblk; rw [dat_A]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [dat_A]; try rfl) t d).trans
    (by unfold Dat.fetched Dat.blockOf iblk; rw [dat_A]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [dat_A]; try rfl) t d).trans
    (by unfold Dat.fetched Dat.blockOf iblk; rw [dat_A]; try rfl)
theorem before_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [dat_A]; try rfl) t d).trans
    (by unfold Dat.fetched Dat.blockOf iblk; rw [dat_A]; try rfl)

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the body's triple applies; the invariant and
    what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.Tile

end
-- ==== Proof.TileRunK.lean ====
/-
  The whole run of the program: two reshapes on the host, the kernel region, one reshape on the host.

  Between the pieces the TensorCore holds every buffer that outlives a region at known contents, a fold from
  the launch memory: after the first host stretch the two bias vectors also stand as rows; after the region the
  result array holds what the grid's 256 write-backs left and every other buffer is as the region found it (the
  region only reads its six inputs); after the last stretch the result stands reshaped. The region takes the
  position array at two half shares, one for each of the two windows that read it, and the halves are joined
  again at its exit. No argument array is written by any piece, so each ends as launched.
-/
import proofs.«127819_j63471026700851_2_alg».proof.Proof.TileDatK
import Idealize.ShloMosaic.Lib.Pipeline.RegionsLoop
import Idealize.ShloMosaic.Lib.Pipeline.FrameSuffix

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The position array between its two windows -/

section Sharing

variable (V : (c : Dev nD) → (b : Ref sig .tc) → Buf (Elt F) ((c : Thread nD τ).loc b))

/-- The distinct buffers behind the seven windows' arrays are six: the position array is behind two windows. -/
theorem arr_image : Finset.univ.image (Pipeline.arrRef spec0)
    = ([main_arg1, main_arg2, main_v0, main_arg4, main_v1, main_v2] : List (Ref sig .tc)).toFinset := by decide

/-- Those six buffers, each whole at contents `B`, one by one. -/
theorem arrBufs_chain (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_arg1) ↦{fullShare} B main_arg1) ∗ (((c : Thread nD τ).loc main_arg2) ↦{fullShare} B main_arg2)
          ∗ (((c : Thread nD τ).loc main_v0) ↦{fullShare} B main_v0) ∗ (((c : Thread nD τ).loc main_arg4) ↦{fullShare} B main_arg4)
          ∗ (((c : Thread nD τ).loc main_v1) ↦{fullShare} B main_v1) ∗ (((c : Thread nD τ).loc main_v2) ↦{fullShare} B main_v2)) := by
  unfold Pipeline.arrBufs
  exact bigSep_eq_bigSepL_of_eq _ arr_image (by decide) _

/-- The proof data's arrays, window by window: the position array at the left half for the source window and at
    the right half for the destination window, every other array whole. -/
theorem arrays_chain (c : Dev nD) (A : (w : Fin cfg0.W) → Buf (Elt F) ((cfg0.win w).arr.view.loc (c : Thread nD τ))) :
    ((dat V c).arrays A : sProp 𝕄)
      = iprop((((c : Thread nD τ).loc main_arg1) ↦{fullShare.left} A 0) ∗ (((c : Thread nD τ).loc main_arg1) ↦{fullShare.right} A 1)
          ∗ (((c : Thread nD τ).loc main_arg2) ↦{fullShare} A 2) ∗ (((c : Thread nD τ).loc main_v0) ↦{fullShare} A 3)
          ∗ (((c : Thread nD τ).loc main_arg4) ↦{fullShare} A 4) ∗ (((c : Thread nD τ).loc main_v1) ↦{fullShare} A 5)
          ∗ (((c : Thread nD τ).loc main_v2) ↦{fullShare} A 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- A core's unscoped buffers are the six buffers behind the arrays and the rest. -/
theorem bufs_split (c : Dev nD) (B : (b : Ref sig .tc) → Buf (Elt F) ((c : Thread nD τ).loc b)) :
    (unscopedBufs (Ix := Unit) (Name := ℕ) (U := UR sig nD τ) (Lvl := ℕ) c B : sProp 𝕄)
      = iprop((Pipeline.arrBufs (Ix := Unit) (Name := ℕ) (U := UR sig nD τ) (Lvl := ℕ) spec0 c B : sProp 𝕄)
          ∗ Pipeline.unscopedRest (Ix := Unit) (Name := ℕ) (U := UR sig nD τ) (Lvl := ℕ) spec0 c B) :=
  Pipeline.unscopedBufs_split₀ cfgs (0 : Fin 1) winFacts₀0.arr_unscoped c B

/-- ENTRY: the core's unscoped buffers at `B` are the proof data's arrays at contents read off `B` — the position
    array split into its halves — and the buffers no window stages. -/
theorem entry_split (c : Dev nD) (B : (b : Ref sig .tc) → Buf (Elt F) ((c : Thread nD τ).loc b))
    (A : (w : Fin cfg0.W) → Buf (Elt F) ((cfg0.win w).arr.view.loc (c : Thread nD τ))) (hA : ∀ w, A w = B (Pipeline.arrRef spec0 w)) :
    (unscopedBufs (Ix := Unit) (Name := ℕ) (U := UR sig nD τ) (Lvl := ℕ) c B : sProp 𝕄)
      ⊢ iprop((dat V c).arrays A ∗ Pipeline.unscopedRest (Ix := Unit) (Name := ℕ) (U := UR sig nD τ) (Lvl := ℕ) spec0 c B) := by
  rw [bufs_split c B, arrays_chain, arrBufs_chain,
    hA 0, hA 1, hA 2, hA 3, hA 4, hA 5, hA 6]
  iintro ⟨⟨H1, H2, H3, H4, H5, H6⟩, Hrest⟩
  isplitr [Hrest]
  swap; · iexact Hrest
  ihave Hs := (pointsTo_share (PosShare.mem_left_op_right fullShare)).1 $$ H1
  icases Hs with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the arrays at contents that agree with `B'` — the position array's two halves joined — and the buffers no
    window stages, unchanged at `B`, are the core's unscoped buffers at `B'`, provided `B'` is `B` off the arrays. -/
theorem exit_join (c : Dev nD) (B B' : (b : Ref sig .tc) → Buf (Elt F) ((c : Thread nD τ).loc b))
    (A : (w : Fin cfg0.W) → Buf (Elt F) ((cfg0.win w).arr.view.loc (c : Thread nD τ))) (hA : ∀ w, A w = B' (Pipeline.arrRef spec0 w))
    (hrest : ∀ b, b ∉ Finset.univ.image (Pipeline.arrRef spec0) → B' b = B b) :
    iprop((dat V c).arrays A ∗ Pipeline.unscopedRest (Ix := Unit) (Name := ℕ) (U := UR sig nD τ) (Lvl := ℕ) spec0 c B)
      ⊢ (unscopedBufs (Ix := Unit) (Name := ℕ) (U := UR sig nD τ) (Lvl := ℕ) c B' : sProp 𝕄) := by
  rw [bufs_split c B', arrays_chain, arrBufs_chain,
    hA 0, hA 1, hA 2, hA 3, hA 4, hA 5, hA 6]
  have hr : (Pipeline.unscopedRest (Ix := Unit) (Name := ℕ) (U := UR sig nD τ) (Lvl := ℕ) spec0 c B : sProp 𝕄)
      = Pipeline.unscopedRest (Ix := Unit) (Name := ℕ) (U := UR sig nD τ) (Lvl := ℕ) spec0 c B' := by
    unfold Pipeline.unscopedRest
    exact bigSep_congr fun b hb => by rw [hrest b (Finset.mem_sdiff.mp hb).2]
  rw [hr]
  iintro ⟨⟨Hl, Hr, H2, H3, H4, H5, H6⟩, Hrest⟩
  isplitr [Hrest]
  swap; · iexact Hrest
  isplitl [Hl Hr]
  · iapply (pointsTo_share (PosShare.mem_left_op_right fullShare)).2
    isplitl [Hl] <;> iassumption
  isplitl [H2]; · iexact H2
  isplitl [H3]; · iexact H3
  isplitl [H4]; · iexact H4
  isplitl [H5]; · iexact H5
  iexact H6

end Sharing

/-! ## The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

open Classical in
/-- At the region's exit: the result array at what the write-backs of all grid points left, everything else as
    at the entry. -/
def W2 (c : Dev nD) : Valuation τ sig (Elt F) :=
  Function.update (W1 m ρ c) (Proc.devRef .tc main_v2) ((dat (V1 m ρ) c).arrAt 6 cfg0.N)

theorem W2_result (c : Dev nD) : W2 m ρ c (Proc.devRef .tc main_v2) = (dat (V1 m ρ) c).arrAt 6 cfg0.N := by
  unfold W2; exact Function.update_self _ _ _

theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) _ _

abbrev V2 : (c : Dev nD) → (b : Ref sig .tc) → Buf (Elt F) ((c : Thread nD τ).loc b) := fun c b => W2 m ρ c b

/-- After the last host stretch: the end. -/
abbrev W3 : Dev nD → Valuation τ sig (Elt F) := fun c => StableHlo.after hostOps1 (W2 m ρ c)

/-- At the exit every array holds what `V2` says: an input what it held at the entry, the result the write-backs. -/
theorem exit_arrays (c : Dev nD) (w : Fin cfg0.W) : (dat (V1 m ρ) c).arrAt w cfg0.N = V2 m ρ c (Pipeline.arrRef spec0 w) := by
  match w with
  | ⟨0, _⟩ => exact (((dat (V1 m ρ) c).arrAt_in 0 rfl _).trans (dat_A (V1 m ρ) c 0)).trans (W2_of_ne m ρ c main_arg1 (by decide)).symm
  | ⟨1, _⟩ => exact (((dat (V1 m ρ) c).arrAt_in 1 rfl _).trans (dat_A (V1 m ρ) c 1)).trans (W2_of_ne m ρ c main_arg1 (by decide)).symm
  | ⟨2, _⟩ => exact (((dat (V1 m ρ) c).arrAt_in 2 rfl _).trans (dat_A (V1 m ρ) c 2)).trans (W2_of_ne m ρ c main_arg2 (by decide)).symm
  | ⟨3, _⟩ => exact (((dat (V1 m ρ) c).arrAt_in 3 rfl _).trans (dat_A (V1 m ρ) c 3)).trans (W2_of_ne m ρ c main_v0 (by decide)).symm
  | ⟨4, _⟩ => exact (((dat (V1 m ρ) c).arrAt_in 4 rfl _).trans (dat_A (V1 m ρ) c 4)).trans (W2_of_ne m ρ c main_arg4 (by decide)).symm
  | ⟨5, _⟩ => exact (((dat (V1 m ρ) c).arrAt_in 5 rfl _).trans (dat_A (V1 m ρ) c 5)).trans (W2_of_ne m ρ c main_v1 (by decide)).symm
  | ⟨6, _⟩ => exact (W2_result m ρ c).symm

/-- Off the arrays the exit contents are the entry contents. -/
theorem exit_rest (c : Dev nD) : ∀ b, b ∉ Finset.univ.image (Pipeline.arrRef spec0) → V2 m ρ c b = V1 m ρ c b := fun b hb =>
  W2_of_ne m ρ c b fun e => hb (Finset.mem_image.mpr ⟨6, Finset.mem_univ _, e.symm⟩)

/-! ### No piece writes an argument: each ends as launched -/

theorem end_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem end_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl
theorem end_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl
theorem end_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl
theorem end_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl
theorem end_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

/-! ## The segments -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)

/-- A host stretch from contents `W`: it runs to `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the `owes` apart. -/
abbrev Tend (c : Dev nD) : sProp 𝕄 := iprop(StableHlo.held (c : Thread nD τ) (Pipeline.ucRefs τ sig) (W3 m ρ c) ∗ ∃ r, prngReg c r)

set_option backward.isDefEq.respectTransparency.types false in
/-- The kernel region as a segment: entered from every unscoped buffer at `W1`, left at `W2`. -/
def region : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c (V1 m ρ c) ((dat (V1 m ρ) c).arrAt · 0) (fun w => dat_A (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V1 m ρ c) (V2 m ρ c) ((dat (V1 m ρ) c).arrAt · cfg0.N) (exit_arrays m ρ c) (exit_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The three segments in order. -/
abbrev segs : List (Pipeline.Seg (pcfgs (F := F)) adm (pdats m ρ) () defs₀ 𝒱₀ L lv) :=
  [ .host (hseg hostOps0 hostOps0_sub hostOps0_fresh (W0 m ρ)),
    .region (region m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with every semaphore at zero, every weakly fair execution of the program terminates
    without a fault, and at the end every buffer that outlives the regions holds what the fold says: in
    particular the result buffer holds `W3`'s reshaped result and the six arguments are as launched. -/
theorem run_main : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tend m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c)⟩)

end Cert.Kernel.Tile

end
-- ==== Proof.TileBodyI.lean ====
/-
  The kernel body at one grid point, as a statement about memory.

  The body reads six staged blocks — the source rows' positions, the destination rows' positions, the two
  weight matrices and the two bias rows — each through the rectangle that is the whole staging buffer, and
  writes one value, the 128 × 4096 tile of edge features, over the whole output staging buffer. So after the
  body the output buffer holds exactly that value (`tileOut`): the single store covers the buffer, and the
  contents it had before are gone. The inputs are left as they were.
-/
import proofs.«127819_j63471026700851_2_alg».proof.Proof.Gen.KernelIdeal.Launch
import proofs.«127819_j63471026700851_2_alg».proof.Proof.Gen.KernelIdeal.Skeleton
import proofs.«127819_j63471026700851_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is a whole staging buffer -/

abbrev rPos : Rect S128x2 := Rect.unit (s := S128x2) ![0, 0] S128x2.size inb_S128x2_S128x2_0_0
abbrev rW1 : Rect S2x32 := Rect.unit (s := S2x32) ![0, 0] S2x32.size inb_S2x32_S2x32_0_0
abbrev rRow : Rect S1x32 := Rect.unit (s := S1x32) ![0, 0] S1x32.size inb_S1x32_S1x32_0_0
abbrev rW2 : Rect S32x32 := Rect.unit (s := S32x32) ![0, 0] S32x32.size inb_S32x32_S32x32_0_0
abbrev rTile : Rect S128x4096 := Rect.unit (s := S128x4096) ![0, 0] S128x4096.size inb_S128x4096_S128x4096_0_0

/-- The value the body stores at grid point `i`, from the six blocks it loaded: source positions `xs`,
    destination positions `xd`, first-layer weights `w1` and bias row `b1`, second-layer weights `w2` and bias
    row `b2`. -/
def stored (i : grid0.Coords) (xs xd : Vec F S128x2 .f32) (w1 : Vec F S2x32 .f32) (b1 : Vec F S1x32 .f32)
    (w2 : Vec F S32x32 .f32) (b2 : Vec F S1x32 .f32) : Vec F S128x4096 .f32 :=
  k0_pay1 (k0_pay4 i xs xd) (k0_pay5 b1) (k0_pay6 xs xd w1) (k0_pay7 w1) (k0_pay8 xs xd) w2 b2

/-- The output staging buffer after the body: its one store, over the whole buffer. -/
def tileOut (i : grid0.Coords) (xs xd : Vec F S128x2 .f32) (w1 : Vec F S2x32 .f32) (b1 : Vec F S1x32 .f32)
    (w2 : Vec F S32x32 .f32) (b2 : Vec F S1x32 .f32) : Vec F S128x4096 .f32 :=
  View.canon [⟨rTile, stored i (View.ld xs rPos) (View.ld xd rPos) (View.ld w1 rW1) (View.ld b1 rRow) (View.ld w2 rW2) (View.ld b2 rRow)⟩]

/-- The one store's rectangle is the buffer, so every index of the buffer lies in it. -/
theorem tile_cover (p : Vec F S128x4096 .f32) (y : S128x4096.Idx) :
    ∃ pc ∈ ([⟨rTile, p⟩] : List (View.Piece (Elt F) S128x4096 .f32)), y ∈ pc.1.set :=
  View.cover_of_tiled [⟨rTile, p⟩] S128x4096.size (by rfl) y

/-! ## The body's triple -/

set_option maxHeartbeats 1000000 in
/-- On whole staging memrefs, the six inputs held at contents `xs … b2` and the output at anything, the body runs
    to its continuation with the inputs as they were and the output at `tileOut`. -/
theorem body_triple (c : Dev nD) (E : Set ℕ) (i : grid0.Coords)
    (a2 : Memref sig .tc .vmem S128x2 .f32) (h2 : a2.IsWhole) (a3 : Memref sig .tc .vmem S128x2 .f32) (h3 : a3.IsWhole)
    (a4 : Memref sig .tc .vmem S2x32 .f32) (h4 : a4.IsWhole) (a5 : Memref sig .tc .vmem S1x32 .f32) (h5 : a5.IsWhole)
    (a6 : Memref sig .tc .vmem S32x32 .f32) (h6 : a6.IsWhole) (a7 : Memref sig .tc .vmem S1x32 .f32) (h7 : a7.IsWhole)
    (a8 : Memref sig .tc .vmem S128x4096 .f32) (h8 : a8.IsWhole)
    (xs xd : Vec F S128x2 .f32) (w1 : Vec F S2x32 .f32) (b1 : Vec F S1x32 .f32) (w2 : Vec F S32x32 .f32) (b2 : Vec F S1x32 .f32)
    (K : PUnit → sProp 𝕄) :
    iprop(owns (c : Thread nD τ) a2 fullShare xs ∗ owns (c : Thread nD τ) a3 fullShare xd ∗ owns (c : Thread nD τ) a4 fullShare w1
        ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a2 fullShare xs ∗ owns (c : Thread nD τ) a3 fullShare xd ∗ owns (c : Thread nD τ) a4 fullShare w1
            ∗ owns (c : Thread nD τ) a5 fullShare b1 ∗ owns (c : Thread nD τ) a6 fullShare w2 ∗ owns (c : Thread nD τ) a7 fullShare b2
            ∗ owns (c : Thread nD τ) a8 fullShare (tileOut i xs xd w1 b1 w2 b2)) -∗ K ⟨⟩))
      ⊢ wp frame (wpE (defs₀ (F := F)) Variants.none c none) E (cc0__edge_kernel i a2 h2 a3 h3 a4 h4 a5 h5 a6 h6 a7 h7 a8 h8) K := by
  simp only [cc0__edge_kernel_eq_skeleton]; unfold cc0__edge_kernel_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e2 e3 e4 e5 e6 e7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (tile_cover _)

end Cert.KernelIdeal.Tile

end
-- ==== Proof.TileDatI.lean ====
/-
  The pipeline's proof data for the one kernel region, at whatever the TensorCore's buffers hold when the
  region is entered (`V`).

  Every input window's staging buffer holds, when the body runs at a grid point, that window's block of its
  array at the point — freshly fetched, or left there from an earlier point at which the block index was the
  same. The position array is read through two windows (the source rows' block and the destination rows'
  block), so the region holds it at two half shares, one per window; every other input array is held whole.
  After the body the input buffers are as they were and the output buffer holds the tile `tileOut` of the six
  blocks. With that, the body's triple is the library's body obligation at every point.
-/
import proofs.«127819_j63471026700851_2_alg».proof.Proof.TileBodyI

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The share of its array each input window holds: the two windows on the position array a half each. -/
def winShare : Fin cfg0.W → PosShare TreeShare
  | ⟨0, _⟩ => fullShare.left
  | ⟨1, _⟩ => fullShare.right
  | _ => fullShare

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => tileOut (grid0.coords t) (iblk V c 0 t) (iblk V c 1 t) (iblk V c 2 t) (iblk V c 3 t) (iblk V c 4 t) (iblk V c 5 t)
  Φ _ := Pipeline.ΦA spec0 c
  q := winShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = tileOut (grid0.coords t) (iblk V c 0 t) (iblk V c 1 t) (iblk V c 2 t) (iblk V c 3 t) (iblk V c 4 t) (iblk V c 5 t) := by
  dsimp only [dat]

/-- An input window the body only reads holds its block at every point: where it is not fetched the block index
    has not moved since the point that fetched it. One statement per input window (the window a numeral, so that its
    block's shape is the literal one). -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [dat_A]; try rfl) t d).trans
    (by unfold Dat.fetched Dat.blockOf iblk; rw [dat_A]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [dat_A]; try rfl) t d).trans
    (by unfold Dat.fetched Dat.blockOf iblk; rw [dat_A]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [dat_A]; try rfl) t d).trans
    (by unfold Dat.fetched Dat.blockOf iblk; rw [dat_A]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [dat_A]; try rfl) t d).trans
    (by unfold Dat.fetched Dat.blockOf iblk; rw [dat_A]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [dat_A]; try rfl) t d).trans
    (by unfold Dat.fetched Dat.blockOf iblk; rw [dat_A]; try rfl)
theorem before_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [dat_A]; try rfl) t d).trans
    (by unfold Dat.fetched Dat.blockOf iblk; rw [dat_A]; try rfl)

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the body's triple applies; the invariant and
    what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.Tile

end
-- ==== Proof.TileRunI.lean ====
/-
  The whole run of the program: two reshapes on the host, the kernel region, one reshape on the host.

  Between the pieces the TensorCore holds every buffer that outlives a region at known contents, a fold from
  the launch memory: after the first host stretch the two bias vectors also stand as rows; after the region the
  result array holds what the grid's 256 write-backs left and every other buffer is as the region found it (the
  region only reads its six inputs); after the last stretch the result stands reshaped. The region takes the
  position array at two half shares, one for each of the two windows that read it, and the halves are joined
  again at its exit. No argument array is written by any piece, so each ends as launched.
-/
import proofs.«127819_j63471026700851_2_alg».proof.Proof.TileDatI
import Idealize.ShloMosaic.Lib.Pipeline.RegionsLoop
import Idealize.ShloMosaic.Lib.Pipeline.FrameSuffix

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The position array between its two windows -/

section Sharing

variable (V : (c : Dev nD) → (b : Ref sig .tc) → Buf (Elt F) ((c : Thread nD τ).loc b))

/-- The distinct buffers behind the seven windows' arrays are six: the position array is behind two windows. -/
theorem arr_image : Finset.univ.image (Pipeline.arrRef spec0)
    = ([main_arg1, main_arg2, main_v0, main_arg4, main_v1, main_v2] : List (Ref sig .tc)).toFinset := by decide

/-- Those six buffers, each whole at contents `B`, one by one. -/
theorem arrBufs_chain (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_arg1) ↦{fullShare} B main_arg1) ∗ (((c : Thread nD τ).loc main_arg2) ↦{fullShare} B main_arg2)
          ∗ (((c : Thread nD τ).loc main_v0) ↦{fullShare} B main_v0) ∗ (((c : Thread nD τ).loc main_arg4) ↦{fullShare} B main_arg4)
          ∗ (((c : Thread nD τ).loc main_v1) ↦{fullShare} B main_v1) ∗ (((c : Thread nD τ).loc main_v2) ↦{fullShare} B main_v2)) := by
  unfold Pipeline.arrBufs
  exact bigSep_eq_bigSepL_of_eq _ arr_image (by decide) _

/-- The proof data's arrays, window by window: the position array at the left half for the source window and at
    the right half for the destination window, every other array whole. -/
theorem arrays_chain (c : Dev nD) (A : (w : Fin cfg0.W) → Buf (Elt F) ((cfg0.win w).arr.view.loc (c : Thread nD τ))) :
    ((dat V c).arrays A : sProp 𝕄)
      = iprop((((c : Thread nD τ).loc main_arg1) ↦{fullShare.left} A 0) ∗ (((c : Thread nD τ).loc main_arg1) ↦{fullShare.right} A 1)
          ∗ (((c : Thread nD τ).loc main_arg2) ↦{fullShare} A 2) ∗ (((c : Thread nD τ).loc main_v0) ↦{fullShare} A 3)
          ∗ (((c : Thread nD τ).loc main_arg4) ↦{fullShare} A 4) ∗ (((c : Thread nD τ).loc main_v1) ↦{fullShare} A 5)
          ∗ (((c : Thread nD τ).loc main_v2) ↦{fullShare} A 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- A core's unscoped buffers are the six buffers behind the arrays and the rest. -/
theorem bufs_split (c : Dev nD) (B : (b : Ref sig .tc) → Buf (Elt F) ((c : Thread nD τ).loc b)) :
    (unscopedBufs (Ix := Unit) (Name := ℕ) (U := UR sig nD τ) (Lvl := ℕ) c B : sProp 𝕄)
      = iprop((Pipeline.arrBufs (Ix := Unit) (Name := ℕ) (U := UR sig nD τ) (Lvl := ℕ) spec0 c B : sProp 𝕄)
          ∗ Pipeline.unscopedRest (Ix := Unit) (Name := ℕ) (U := UR sig nD τ) (Lvl := ℕ) spec0 c B) :=
  Pipeline.unscopedBufs_split₀ cfgs (0 : Fin 1) winFacts₀0.arr_unscoped c B

/-- ENTRY: the core's unscoped buffers at `B` are the proof data's arrays at contents read off `B` — the position
    array split into its halves — and the buffers no window stages. -/
theorem entry_split (c : Dev nD) (B : (b : Ref sig .tc) → Buf (Elt F) ((c : Thread nD τ).loc b))
    (A : (w : Fin cfg0.W) → Buf (Elt F) ((cfg0.win w).arr.view.loc (c : Thread nD τ))) (hA : ∀ w, A w = B (Pipeline.arrRef spec0 w)) :
    (unscopedBufs (Ix := Unit) (Name := ℕ) (U := UR sig nD τ) (Lvl := ℕ) c B : sProp 𝕄)
      ⊢ iprop((dat V c).arrays A ∗ Pipeline.unscopedRest (Ix := Unit) (Name := ℕ) (U := UR sig nD τ) (Lvl := ℕ) spec0 c B) := by
  rw [bufs_split c B, arrays_chain, arrBufs_chain,
    hA 0, hA 1, hA 2, hA 3, hA 4, hA 5, hA 6]
  iintro ⟨⟨H1, H2, H3, H4, H5, H6⟩, Hrest⟩
  isplitr [Hrest]
  swap; · iexact Hrest
  ihave Hs := (pointsTo_share (PosShare.mem_left_op_right fullShare)).1 $$ H1
  icases Hs with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the arrays at contents that agree with `B'` — the position array's two halves joined — and the buffers no
    window stages, unchanged at `B`, are the core's unscoped buffers at `B'`, provided `B'` is `B` off the arrays. -/
theorem exit_join (c : Dev nD) (B B' : (b : Ref sig .tc) → Buf (Elt F) ((c : Thread nD τ).loc b))
    (A : (w : Fin cfg0.W) → Buf (Elt F) ((cfg0.win w).arr.view.loc (c : Thread nD τ))) (hA : ∀ w, A w = B' (Pipeline.arrRef spec0 w))
    (hrest : ∀ b, b ∉ Finset.univ.image (Pipeline.arrRef spec0) → B' b = B b) :
    iprop((dat V c).arrays A ∗ Pipeline.unscopedRest (Ix := Unit) (Name := ℕ) (U := UR sig nD τ) (Lvl := ℕ) spec0 c B)
      ⊢ (unscopedBufs (Ix := Unit) (Name := ℕ) (U := UR sig nD τ) (Lvl := ℕ) c B' : sProp 𝕄) := by
  rw [bufs_split c B', arrays_chain, arrBufs_chain,
    hA 0, hA 1, hA 2, hA 3, hA 4, hA 5, hA 6]
  have hr : (Pipeline.unscopedRest (Ix := Unit) (Name := ℕ) (U := UR sig nD τ) (Lvl := ℕ) spec0 c B : sProp 𝕄)
      = Pipeline.unscopedRest (Ix := Unit) (Name := ℕ) (U := UR sig nD τ) (Lvl := ℕ) spec0 c B' := by
    unfold Pipeline.unscopedRest
    exact bigSep_congr fun b hb => by rw [hrest b (Finset.mem_sdiff.mp hb).2]
  rw [hr]
  iintro ⟨⟨Hl, Hr, H2, H3, H4, H5, H6⟩, Hrest⟩
  isplitr [Hrest]
  swap; · iexact Hrest
  isplitl [Hl Hr]
  · iapply (pointsTo_share (PosShare.mem_left_op_right fullShare)).2
    isplitl [Hl] <;> iassumption
  isplitl [H2]; · iexact H2
  isplitl [H3]; · iexact H3
  isplitl [H4]; · iexact H4
  isplitl [H5]; · iexact H5
  iexact H6

end Sharing

/-! ## The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

open Classical in
/-- At the region's exit: the result array at what the write-backs of all grid points left, everything else as
    at the entry. -/
def W2 (c : Dev nD) : Valuation τ sig (Elt F) :=
  Function.update (W1 m ρ c) (Proc.devRef .tc main_v2) ((dat (V1 m ρ) c).arrAt 6 cfg0.N)

theorem W2_result (c : Dev nD) : W2 m ρ c (Proc.devRef .tc main_v2) = (dat (V1 m ρ) c).arrAt 6 cfg0.N := by
  unfold W2; exact Function.update_self _ _ _

theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) _ _

abbrev V2 : (c : Dev nD) → (b : Ref sig .tc) → Buf (Elt F) ((c : Thread nD τ).loc b) := fun c b => W2 m ρ c b

/-- After the last host stretch: the end. -/
abbrev W3 : Dev nD → Valuation τ sig (Elt F) := fun c => StableHlo.after hostOps1 (W2 m ρ c)

/-- At the exit every array holds what `V2` says: an input what it held at the entry, the result the write-backs. -/
theorem exit_arrays (c : Dev nD) (w : Fin cfg0.W) : (dat (V1 m ρ) c).arrAt w cfg0.N = V2 m ρ c (Pipeline.arrRef spec0 w) := by
  match w with
  | ⟨0, _⟩ => exact (((dat (V1 m ρ) c).arrAt_in 0 rfl _).trans (dat_A (V1 m ρ) c 0)).trans (W2_of_ne m ρ c main_arg1 (by decide)).symm
  | ⟨1, _⟩ => exact (((dat (V1 m ρ) c).arrAt_in 1 rfl _).trans (dat_A (V1 m ρ) c 1)).trans (W2_of_ne m ρ c main_arg1 (by decide)).symm
  | ⟨2, _⟩ => exact (((dat (V1 m ρ) c).arrAt_in 2 rfl _).trans (dat_A (V1 m ρ) c 2)).trans (W2_of_ne m ρ c main_arg2 (by decide)).symm
  | ⟨3, _⟩ => exact (((dat (V1 m ρ) c).arrAt_in 3 rfl _).trans (dat_A (V1 m ρ) c 3)).trans (W2_of_ne m ρ c main_v0 (by decide)).symm
  | ⟨4, _⟩ => exact (((dat (V1 m ρ) c).arrAt_in 4 rfl _).trans (dat_A (V1 m ρ) c 4)).trans (W2_of_ne m ρ c main_arg4 (by decide)).symm
  | ⟨5, _⟩ => exact (((dat (V1 m ρ) c).arrAt_in 5 rfl _).trans (dat_A (V1 m ρ) c 5)).trans (W2_of_ne m ρ c main_v1 (by decide)).symm
  | ⟨6, _⟩ => exact (W2_result m ρ c).symm

/-- Off the arrays the exit contents are the entry contents. -/
theorem exit_rest (c : Dev nD) : ∀ b, b ∉ Finset.univ.image (Pipeline.arrRef spec0) → V2 m ρ c b = V1 m ρ c b := fun b hb =>
  W2_of_ne m ρ c b fun e => hb (Finset.mem_image.mpr ⟨6, Finset.mem_univ _, e.symm⟩)

/-! ### No piece writes an argument: each ends as launched -/

theorem end_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem end_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl
theorem end_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl
theorem end_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl
theorem end_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl
theorem end_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

/-! ## The segments -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)

/-- A host stretch from contents `W`: it runs to `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the `owes` apart. -/
abbrev Tend (c : Dev nD) : sProp 𝕄 := iprop(StableHlo.held (c : Thread nD τ) (Pipeline.ucRefs τ sig) (W3 m ρ c) ∗ ∃ r, prngReg c r)

set_option backward.isDefEq.respectTransparency.types false in
/-- The kernel region as a segment: entered from every unscoped buffer at `W1`, left at `W2`. -/
def region : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c (V1 m ρ c) ((dat (V1 m ρ) c).arrAt · 0) (fun w => dat_A (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V1 m ρ c) (V2 m ρ c) ((dat (V1 m ρ) c).arrAt · cfg0.N) (exit_arrays m ρ c) (exit_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The three segments in order. -/
abbrev segs : List (Pipeline.Seg (pcfgs (F := F)) adm (pdats m ρ) () defs₀ 𝒱₀ L lv) :=
  [ .host (hseg hostOps0 hostOps0_sub hostOps0_fresh (W0 m ρ)),
    .region (region m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with every semaphore at zero, every weakly fair execution of the program terminates
    without a fault, and at the end every buffer that outlives the regions holds what the fold says: in
    particular the result buffer holds `W3`'s reshaped result and the six arguments are as launched. -/
theorem run_main : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tend m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c)⟩)

end Cert.KernelIdeal.Tile

end
-- ==== Proof.EdgeSpec.lean ====
/-
  The edge-feature map both programs compute, as one function of the argument arrays.

  For nodes `s` (source) and `d` (destination) with planar positions `pos s`, `pos d`, put
  `rel = pos d − pos s`. The hidden layer is `h k = max (rel.x · W1[0,k] + rel.y · W1[1,k] + b1[k]) 0`,
  the edge feature `f` is `(∑ k, h k · W2[k,f]) + b2[f]`, and it is kept (times one) when the squared
  length of `rel` is at most the squared radius and `s ≠ d`, and zeroed (times zero) otherwise.
  Everything is on the extended reals; the squared radius is the one float literal, the same binary
  word in both programs, and is never evaluated.

  The map is stated first on a relative position `(rx, ry)` and a proposition "the pair is not a loop"
  (`edgeOf`), so that a tile of the result computed from two staged blocks of positions and the whole
  result computed from the position array are instances of one definition.
-/
import Idealize.ShloMosaic.PureOps.Ideal
import Idealize.ShloMosaic.Lib.ValueIdx

noncomputable section

namespace Cert.EdgeSpec

open Idealize.ShloMosaic Idealize.ShloMosaic.ValueIdx

/-- The squared radius `0.05²` as the single-precision word both programs carry. -/
abbrev rad2 : EReal := Ideal.ofBits .f32 0x3B23D70A#32

abbrev Pos := (⟨2, ![2048, 2]⟩ : Shape).Idx → EReal
abbrev Mat1 := (⟨2, ![2, 32]⟩ : Shape).Idx → EReal
abbrev Mat2 := (⟨2, ![32, 32]⟩ : Shape).Idx → EReal
abbrev Bias := (⟨1, ![32]⟩ : Shape).Idx → EReal

/-- Hidden unit with first-layer weights `w0`, `w1` and bias `b`: the rectified affine image of `(rx, ry)`. -/
def hiddenOf (rx ry w0 w1 b : EReal) : EReal := max (rx * w0 + ry * w1 + b) 0

/-- One for a relative position within the radius of a pair that is not a loop, zero otherwise. -/
def keepOf (rx ry : EReal) (ne : Prop) [Decidable ne] : EReal :=
  if rx * rx + ry * ry ≤ rad2 ∧ ne then 1 else 0

/-- Feature `f` of an edge with relative position `(rx, ry)`: the second layer over the 32 hidden units, plus
    its bias `b2f`, times the keep factor. `b1 k` is the first layer's bias of hidden unit `k`. -/
def edgeOf (rx ry : EReal) (ne : Prop) [Decidable ne] (W1 : Mat1) (b1 : Fin 32 → EReal) (W2 : Mat2) (b2f : EReal)
    (f : Fin 32) : EReal :=
  ((∑ k : Fin 32, hiddenOf rx ry (W1 (ix2 (0 : Fin 2) k)) (W1 (ix2 (1 : Fin 2) k)) (b1 k) * W2 (ix2 k f)) + b2f)
    * keepOf rx ry ne

/-- First coordinate of `pos d − pos s`. -/
def relx (pos : Pos) (s d : Fin 2048) : EReal := pos (ix2 d (0 : Fin 2)) - pos (ix2 s (0 : Fin 2))
/-- Second coordinate of `pos d − pos s`. -/
def rely (pos : Pos) (s d : Fin 2048) : EReal := pos (ix2 d (1 : Fin 2)) - pos (ix2 s (1 : Fin 2))

/-- Feature `f` of the edge `s → d` of the whole graph. -/
def edge (pos : Pos) (W1 : Mat1) (b1 : Bias) (W2 : Mat2) (b2 : Bias) (s d : Fin 2048) (f : Fin 32) : EReal :=
  edgeOf (relx pos s d) (rely pos s d) (s ≠ d) W1 (fun k => b1 (ix1 k)) W2 (b2 (ix1 f)) f

/-- The whole result array `[2048, 2048, 32]`. -/
def G (pos : Pos) (W1 : Mat1) (b1 : Bias) (W2 : Mat2) (b2 : Bias) : (⟨3, ![2048, 2048, 32]⟩ : Shape).Idx → EReal :=
  fun j => edge pos W1 b1 W2 b2 (j 0) (j 1) (j 2)

theorem G_ix3 (pos : Pos) (W1 : Mat1) (b1 : Bias) (W2 : Mat2) (b2 : Bias) (s d : Fin 2048) (f : Fin 32) :
    G pos W1 b1 W2 b2 (ix3 s d f) = edge pos W1 b1 W2 b2 s d f := rfl

end Cert.EdgeSpec

end
-- ==== Proof.RefIsSpec.lean ====
/-
  The reference program's result array is the edge-feature map of the specification.

  The reference computes, for every ordered pair of nodes `(s, d)`, the relative position
  `pos d − pos s` (two broadcasts of the position array and a subtraction), its squared length
  (a sum over the two coordinates, started from zero), the 0/1 keep factor (the squared length
  compared with the squared radius, and the pair not a loop: two integer ramps compared), the hidden
  layer (a contraction over the two coordinates, plus the first bias, rectified against zero), and the
  second layer (a contraction over the 32 hidden units, plus the second bias), multiplied by the keep
  factor. Read index by index, each stage is literally the corresponding piece of the specification.
-/
import proofs.«127819_j63471026700851_2_alg».proof.Proof.Gen.ReferenceIdeal.Read
import proofs.«127819_j63471026700851_2_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.EdgeSpec

/-- The relative position: coordinate `c` of the pair `(s, d)` is `pos d − pos s` at `c`. The first
    broadcast chain repeats the positions along the source axis, the second along the destination axis. -/
theorem rel_apply (x1 : (⟨S2048x2, .f32⟩ : BufTy).Contents (Elt Ideal)) (s d : Fin 2048) (c : Fin 2) :
    val_main_v4 (F := Ideal) x1 (ix3 s d c) = x1 (ix2 d c) - x1 (ix2 s c) := by
  have e2 : idx_main_v0 (idx_main_v2 (ix3 s d c)) = ix2 d c :=
    funext fun a => Fin.ext (by match a with | ⟨0, _⟩ => rfl | ⟨1, _⟩ => rfl)
  have e3 : idx_main_v1 (idx_main_v3 (ix3 s d c)) = ix2 s c :=
    funext fun a => Fin.ext (by match a with | ⟨0, _⟩ => rfl | ⟨1, _⟩ => rfl)
  rw [val_main_v4_apply, val_main_v2_apply, val_main_v3_apply, val_main_v0_apply, val_main_v1_apply, e2, e3]
  rfl

/-- The squared length of the relative position: zero plus the sum of the two squared coordinates. -/
theorem dist2_apply (x1 : (⟨S2048x2, .f32⟩ : BufTy).Contents (Elt Ideal)) (s d : Fin 2048) :
    val_main_v6 (F := Ideal) x1 (ix2 s d) =
      relx x1 s d * relx x1 s d + rely x1 s d * rely x1 s d := by
  have e : ∀ k : Fin 2, idx_main_v6 (ix2 s d) k = ix3 s d k := fun k =>
    funext fun a => Fin.ext (by match a with | ⟨0, _⟩ => rfl | ⟨1, _⟩ => rfl | ⟨2, _⟩ => rfl)
  rw [val_main_v6_apply, val_main_cst_apply, Fin.sum_univ_two, e, e, val_main_v5_apply, val_main_v5_apply,
    rel_apply, rel_apply]
  simp only [Ideal.ofBits_def, Ideal.ofBits_zero_f32, Ideal.mulf_def, zero_add]
  rfl

/-- A one-bit word read as an unsigned integer and then as a float is one when the bit is set, zero otherwise. -/
theorem uitofp_bit (c : BitVec 1) : FloatOps.uitofp (F := Ideal) .f32 c = if c = 1#1 then (1 : EReal) else 0 := by
  rcases BitVec.eq_zero_or_eq_one c with h | h <;> subst h
  · show (((0#1 : BitVec 1).toNat : ℝ) : EReal) = _
    simp
  · show (((1#1 : BitVec 1).toNat : ℝ) : EReal) = _
    simp

/-- The ordered "at most" comparison of two extended reals answers the set bit exactly when the order holds. -/
theorem cmp_ole_eq_one (x y : EReal) : Ideal.cmp .ole x y = 1#1 ↔ x ≤ y := by
  unfold Ideal.cmp
  by_cases h : x ≤ y <;> simp [h]

/-- The loop test: the two integer ramps (row number plus zero, column number) agree at `(s, d)` exactly when
    `s = d`; both numbers are below `2048`, so neither wraps in 32 bits. -/
theorem loop_apply (s d : Fin 2048) : val_main_v11 (F := Ideal) (ix2 s d) = 1#1 ↔ s = d := by
  rw [val_main_v11_apply, val_main_v10_apply, val_main_v7_apply, val_main_v9_apply, val_main_c_apply,
    val_main_v8_apply, IntOp.cmpi_eq]
  show IntOp.addi (BitVec.ofNat 32 s.val) 0#32 = BitVec.ofNat 32 d.val ↔ s = d
  unfold IntOp.addi
  rw [BitVec.add_zero]
  constructor
  · intro h
    have h' := congrArg BitVec.toNat h
    simp only [BitVec.toNat_ofNat] at h'
    exact Fin.ext (by have := s.isLt; have := d.isLt; omega)
  · rintro rfl; rfl

/-- The keep factor: the conjunction of "within the radius" and "not a loop", as a bit, then as a float, then
    repeated along the feature axis. -/
theorem keep_apply (x1 : (⟨S2048x2, .f32⟩ : BufTy).Contents (Elt Ideal)) (s d : Fin 2048) (f : Fin 32) :
    val_main_v27 (F := Ideal) x1 (ix3 s d f) = keepOf (relx x1 s d) (rely x1 s d) (s ≠ d) := by
  have e : idx_main_v25 (idx_main_v27 (ix3 s d f)) = ix2 s d :=
    funext fun a => Fin.ext (by match a with | ⟨0, _⟩ => rfl | ⟨1, _⟩ => rfl)
  rw [val_main_v27_apply, val_main_v26_apply, val_main_v25_apply, e, val_main_v15_apply, val_main_v13_apply,
    val_main_v14_apply, val_main_v12_apply, val_main_cst_0_apply, dist2_apply, uitofp_bit]
  unfold keepOf
  refine if_congr ?_ rfl rfl
  rw [IntOp.andi_eq_one, IntOp.not_eq_one, loop_apply, Ideal.cmpf_def, Ideal.ofBits_def, cmp_ole_eq_one]

/-- The hidden layer: the contraction over the two coordinates of the relative position, plus the first bias,
    rectified against zero. -/
theorem hidden_apply (x1 : (⟨S2048x2, .f32⟩ : BufTy).Contents (Elt Ideal)) (x2 : (⟨S2x32, .f32⟩ : BufTy).Contents (Elt Ideal))
    (x3 : (⟨S32, .f32⟩ : BufTy).Contents (Elt Ideal)) (s d : Fin 2048) (k : Fin 32) :
    val_main_v20 (F := Ideal) x1 x2 x3 (ix3 s d k) =
      hiddenOf (relx x1 s d) (rely x1 s d) (x2 (ix2 (0 : Fin 2) k)) (x2 (ix2 (1 : Fin 2) k)) (x3 (ix1 k)) := by
  have el : ∀ c : Fin 2, lidx_main_v16 (ix3 s d k) c = ix3 s d c := fun c =>
    funext fun a => Fin.ext (by match a with | ⟨0, _⟩ => rfl | ⟨1, _⟩ => rfl | ⟨2, _⟩ => rfl)
  have er : ∀ c : Fin 2, ridx_main_v16 (ix3 s d k) c = ix2 c k := fun c =>
    funext fun a => Fin.ext (by match a with | ⟨0, _⟩ => rfl | ⟨1, _⟩ => rfl)
  have eb : idx_main_v17 (idx_main_v18 (ix3 s d k)) = ix1 k :=
    funext fun a => Fin.ext (by match a with | ⟨0, _⟩ => rfl)
  rw [val_main_v20_apply, val_main_v19_apply, val_main_v16_apply, Fin.sum_univ_two, el, el, er, er, rel_apply,
    rel_apply, val_main_v18_apply, val_main_v17_apply, eb, val_main_call0_v0_apply, val_main_call0_cst_apply]
  simp only [Ideal.ofBits_def, Ideal.ofBits_zero_f32, Ideal.addf_def, Ideal.maximumf_def]
  rfl

/-- The reference's result, index by index, is the specification's edge-feature map: the second layer's
    contraction over the 32 hidden units, plus the second bias, times the keep factor. -/
theorem ref_is_spec (x1 : (⟨S2048x2, .f32⟩ : BufTy).Contents (Elt Ideal)) (x2 : (⟨S2x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) :
    val_main_v28 (F := Ideal) x1 x2 x3 x4 x5 = G x1 x2 x3 x4 x5 := by
  funext j
  obtain ⟨s, d, f, rfl⟩ : ∃ (s d : Fin 2048) (f : Fin 32), j = ix3 s d f := ⟨j 0, j 1, j 2, eq_ix3 j⟩
  have el : ∀ k : Fin 32, lidx_main_v21 (ix3 s d f) k = ix3 s d k := fun k =>
    funext fun a => Fin.ext (by match a with | ⟨0, _⟩ => rfl | ⟨1, _⟩ => rfl | ⟨2, _⟩ => rfl)
  have er : ∀ k : Fin 32, ridx_main_v21 (ix3 s d f) k = ix2 k f := fun k =>
    funext fun a => Fin.ext (by match a with | ⟨0, _⟩ => rfl | ⟨1, _⟩ => rfl)
  have eb : idx_main_v22 (idx_main_v23 (ix3 s d f)) = ix1 f :=
    funext fun a => Fin.ext (by match a with | ⟨0, _⟩ => rfl)
  rw [val_main_v28_apply, val_main_v24_apply, val_main_v21_apply, val_main_v23_apply, val_main_v22_apply, eb,
    keep_apply, G_ix3]
  simp only [el, er, hidden_apply, Ideal.addf_def, Ideal.mulf_def]
  rfl

end Cert.ReferenceIdeal.RefValue

end
-- ==== Proof.LibLayoutAt.lean ====
/-
  Layout operations read at an index given by coordinates, for the shapes a kernel meets when it forms
  all pairs of two blocks of rows: a column `[a, 1]` squeezed to a vector or broadcast along the rows, a
  matrix given a trailing unit axis and broadcast along it, a vector placed on the last axis of a rank-3
  array, and the three row-major regroupings of a rank-3 array `[a, b, c]`: rows and columns merged
  (`[a * b, c]`), and the last two axes merged (`[a, b * c]`). Each lemma names the operand's index by
  coordinates; the merged coordinate is a variable with its equation as a hypothesis, so that a literal
  extent such as `16384` unifies where `128 * 128` would not.
-/
import Idealize.ShloMosaic.Lib.ValueLayout

namespace Cert.LayoutAt

open Idealize.ShloMosaic Idealize.ShloMosaic.ValueIdx

variable {α : Type}

/-! ## Shape casts -/

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector `[c]` cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- An `[a, b, c]` array cast to `[n, c]` with the first two axes merged reads, at row `p = i * b + j` and
    column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix cast to `[a, b, c]` with its rows split reads, at `(i, j, k)`, the operand at row
    `p = i * b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- An `[a, b, c]` array cast to `[a, m]` with the last two axes merged (`m = b * c`) reads, at row `i` and
    column `q = j * c + k`, the operand at `(i, j, k)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (j : Fin b) (k : Fin c)
    (q : Fin m) (hq : q.val = j.val * c + k.val) :
    shapeCast ⟨2, ![a, m]⟩ x h (ix2 i q) = x (ix3 i j k) :=
  shapeCast_apply x h _ _ (by
    rw [Shape.rowMajor_val_three, Shape.rowMajor_val_two]
    show (i.val * b + j.val) * c + k.val = i.val * m + q.val
    rw [hq, hm, Nat.add_mul, Nat.mul_assoc, Nat.add_assoc])

/-- An `[a, m]` matrix cast to `[a, b, c]` with its columns split (`m = b * c`) reads, at `(i, j, k)`, the operand at
    row `i` and column `q = j * c + k`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (q : Fin m) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * m + q.val = (i.val * b + j.val) * c + k.val
    rw [hq, hm, Nat.add_mul, Nat.mul_assoc, Nat.add_assoc])

/-! ## Broadcasts -/

/-- An `[a, 1]` column broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LayoutAt
-- ==== Proof.PayloadAt.lean ====
/-
  The value the kernel's body stores, read at an index, is the specification's edge feature.

  At a grid point `i = (i0, i1)` the body holds a block `v0` of 128 source positions and a block `v1` of 128
  destination positions. It forms all 128 × 128 relative positions `v1[d'] − v0[r]`, applies the first layer (two
  multiply-adds and a bias, then the maximum with zero) on a `[128, 128, 32]` array, regroups that array as
  `[16384, 32]` (row `r * 128 + d'`) for one matrix product with the second layer's weights, adds the second bias,
  regroups back, multiplies by the mask bit of the pair read as a number, and stores the result regrouped as
  `[128, 4096]` (column `d' * 32 + f`). Every regrouping keeps the row-major position, so entry `(r, d' * 32 + f)` of
  the stored value is `EdgeSpec.edgeOf` of the pair's relative position. The pair counts as a loop exactly when the
  global row numbers `i0 * 128 + r` and `i1 * 128 + d'` agree, which the kernel decides on 32-bit words that cannot
  wrap (both numbers are below 2048). Nothing here needs a finite value: each step reads one operation at an index.
-/
import proofs.«127819_j63471026700851_2_alg».proof.Proof.Gen.KernelIdeal.Skeleton
import proofs.«127819_j63471026700851_2_alg».proof.Proof.EdgeSpec
import proofs.«127819_j63471026700851_2_alg».proof.Proof.LibLayoutAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx Cert.LayoutAt

/-! ## The relative position of a pair of rows -/

/-- First coordinate of the destination row's position minus the source row's. -/
theorem relx_at (v0 v1 : Vec Ideal S128x2 .f32) (r d' : Fin 128) :
    k0_pay2 (F := Ideal) v0 v1 (ix2 r d') = v1 (ix2 d' (0 : Fin 2)) - v0 (ix2 r (0 : Fin 2)) := by
  unfold k0_pay2
  rw [subf_apply, broadcastTo_1b_ab_apply, shapeCast_a_1a_apply, shapeCast_a1_a_apply,
    slice2_axis1_apply 0 v1 _ d' (0 : Fin 1) (0 : Fin 2) rfl, broadcastTo_a1_ab_apply,
    slice2_axis1_apply 0 v0 _ r (0 : Fin 1) (0 : Fin 2) rfl]

/-- Second coordinate of the destination row's position minus the source row's. -/
theorem rely_at (v0 v1 : Vec Ideal S128x2 .f32) (r d' : Fin 128) :
    k0_pay3 (F := Ideal) v0 v1 (ix2 r d') = v1 (ix2 d' (1 : Fin 2)) - v0 (ix2 r (1 : Fin 2)) := by
  unfold k0_pay3
  rw [subf_apply, broadcastTo_1b_ab_apply, shapeCast_a_1a_apply, shapeCast_a1_a_apply,
    slice2_axis1_apply 1 v1 _ d' (0 : Fin 1) (1 : Fin 2) rfl, broadcastTo_a1_ab_apply,
    slice2_axis1_apply 1 v0 _ r (0 : Fin 1) (1 : Fin 2) rfl]

/-! ## The first layer's operands -/

/-- The first layer's bias as a vector: entry `k` of the one row. -/
theorem bias1_at (v32 : Vec Ideal S1x32 .f32) (k : Fin 32) :
    k0_pay5 (F := Ideal) v32 (ix1 k) = v32 (ix2 (0 : Fin 1) k) := by
  unfold k0_pay5
  rw [shapeCast_1a_a_apply, shapeCast_self]

/-- The first relative coordinate times the first row of the first layer's weights. -/
theorem xw_at (v0 v1 : Vec Ideal S128x2 .f32) (v31 : Vec Ideal S2x32 .f32) (r d' : Fin 128) (k : Fin 32) :
    k0_pay6 (F := Ideal) v0 v1 v31 (ix3 r d' k) = k0_pay2 (F := Ideal) v0 v1 (ix2 r d') * v31 (ix2 (0 : Fin 2) k) := by
  unfold k0_pay6
  rw [mulf_apply, broadcastTo_ab1_abc_apply, shapeCast_ab_ab1_apply, broadcastTo_11c_abc_apply,
    shapeCast_c_11c_apply, shapeCast_1a_a_apply, slice2_axis0_apply 0 v31 _ (0 : Fin 1) k (0 : Fin 2) rfl]

/-- The second row of the first layer's weights, on the last axis. -/
theorem w1row1_at (v31 : Vec Ideal S2x32 .f32) (u v : Fin 1) (k : Fin 32) :
    k0_pay7 (F := Ideal) v31 (ix3 u v k) = v31 (ix2 (1 : Fin 2) k) := by
  unfold k0_pay7
  rw [shapeCast_c_11c_apply, shapeCast_1a_a_apply, slice2_axis0_apply 1 v31 _ (0 : Fin 1) k (1 : Fin 2) rfl]

/-- The second relative coordinate, constant along the last axis. -/
theorem ybc_at (v0 v1 : Vec Ideal S128x2 .f32) (r d' : Fin 128) (k : Fin 32) :
    k0_pay8 (F := Ideal) v0 v1 (ix3 r d' k) = k0_pay3 (F := Ideal) v0 v1 (ix2 r d') := by
  unfold k0_pay8
  rw [broadcastTo_ab1_abc_apply, shapeCast_ab_ab1_apply]

/-! ## The second layer's product -/

/-- The left operand's row is the result's row. -/
theorem lhs_0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch by decide),
    dif_pos (show (0 : Fin S16384x32.rank) ∈ dot_S16384x32_S32x32_S16384x32_1_0_0_1_n_n.lhsNonContracting by decide)]
  rfl
/-- The left operand's column is the contraction position. -/
theorem lhs_1 (i : S16384x32.Idx) (q : dot_S16384x32_S32x32_S16384x32_1_0_0_1_n_n.contr.Idx) :
    (dot_S16384x32_S32x32_S16384x32_1_0_0_1_n_n.lhsIdx i q 1).val = (q ⟨0, by decide⟩).val :=
  dot_S16384x32_S32x32_S16384x32_1_0_0_1_n_n.lhsIdx_val_of_single rfl i q
/-- The right operand's row is the contraction position. -/
theorem rhs_0 (i : S16384x32.Idx) (q : dot_S16384x32_S32x32_S16384x32_1_0_0_1_n_n.contr.Idx) :
    (dot_S16384x32_S32x32_S16384x32_1_0_0_1_n_n.rhsIdx i q 0).val = (q ⟨0, by decide⟩).val :=
  dot_S16384x32_S32x32_S16384x32_1_0_0_1_n_n.rhsIdx_val_of_single rfl i q
/-- The right operand's column is the result's column. -/
theorem rhs_1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch by decide),
    dif_pos (show (1 : Fin S32x32.rank) ∈ dot_S16384x32_S32x32_S16384x32_1_0_0_1_n_n.rhsNonContracting by decide)]
  rfl

/-- The matrix product into the zero accumulator, read at row `p` and column `f`: the sum over the 32 hidden units. -/
theorem matmul_at (A : FVec Ideal S16384x32 .bf16) (B : FVec Ideal S32x32 .bf16) (p : Fin 16384) (f : Fin 32) :
    matmul dot_S16384x32_S32x32_S16384x32_1_0_0_1_n_n none A B (constant (F := Ideal) S16384x32 .f32 0x00000000#32) (ix2 p f)
      = ∑ k : Fin 32, A (ix2 p k) * B (ix2 k f) := by
  simp only [matmul]
  rw [Ideal.matmul_constant_zero_apply,
    ← Equiv.sum_comp (contrEquiv1 dot_S16384x32_S32x32_S16384x32_1_0_0_1_n_n 32 rfl rfl).symm]
  refine Finset.sum_congr rfl fun k _ => ?_
  have hk := contrEquiv1_symm_val dot_S16384x32_S32x32_S16384x32_1_0_0_1_n_n 32 rfl rfl k
  have el : dot_S16384x32_S32x32_S16384x32_1_0_0_1_n_n.lhsIdx (ix2 p f)
      ((contrEquiv1 dot_S16384x32_S32x32_S16384x32_1_0_0_1_n_n 32 rfl rfl).symm k) = ix2 p k :=
    funext fun a => Fin.ext (by
      match a with
      | ⟨0, _⟩ => exact lhs_0 _ _
      | ⟨1, _⟩ => exact (lhs_1 _ _).trans hk)
  have er : dot_S16384x32_S32x32_S16384x32_1_0_0_1_n_n.rhsIdx (ix2 p f)
      ((contrEquiv1 dot_S16384x32_S32x32_S16384x32_1_0_0_1_n_n 32 rfl rfl).symm k) = ix2 k f :=
    funext fun a => Fin.ext (by
      match a with
      | ⟨0, _⟩ => exact (rhs_0 _ _).trans hk
      | ⟨1, _⟩ => exact rhs_1 _ _)
  rw [el, er]

/-! ## The stored value over its operands -/

/-- The stored `[128, 4096]` value at row `r` and column `q = d' * 32 + f`, over the arrays it is computed from: the
    second layer over the rectified first layer at `(r, d', ·)`, plus its bias, times the mask bit at `(r, d')`
    read as a number. -/
theorem stored_of (v30 : IVec S128x128 1) (v34 : FVec Ideal S32 .f32) (v43 : FVec Ideal S128x128x32 .f32)
    (v45 : FVec Ideal S1x1x32 .f32) (v46 : FVec Ideal S128x128x32 .f32) (v56 : Vec Ideal S32x32 .f32)
    (v57 : Vec Ideal S1x32 .f32) (r d' : Fin 128) (f : Fin 32) (q : Fin 4096) (hq : q.val = d'.val * 32 + f.val) :
    k0_pay1 (F := Ideal) v30 v34 v43 v45 v46 v56 v57 (ix2 r q)
      = ((∑ k : Fin 32, max (v43 (ix3 r d' k) + v46 (ix3 r d' k) * v45 (ix3 (0 : Fin 1) (0 : Fin 1) k) + v34 (ix1 k)) 0
              * v56 (ix2 k f))
          + v57 (ix2 (0 : Fin 1) f)) * ((((v30 (ix2 r d')).setWidth 32).toInt : ℝ) : EReal) := by
  unfold k0_pay1
  rw [shapeCast_abc_am_apply _ _ rfl r d' f q hq, mulf_apply,
    shapeCast_nc_abc_apply _ _ r d' f (⟨r.val * 128 + d'.val, by omega⟩ : Fin 16384) rfl, addf_apply, matmul_at,
    broadcastTo_1b_ab_apply, shapeCast_a_1a_apply, shapeCast_1a_a_apply, shapeCast_self,
    broadcastTo_ab1_abc_apply, sitofp_apply, extui_apply, shapeCast_ab_ab1_apply]
  refine congrArg₂ (· * ·) (congrArg₂ (· + ·) (Finset.sum_congr rfl fun k _ => ?_) rfl) rfl
  rw [truncf_apply, truncf_apply,
    shapeCast_abc_nc_apply _ _ r d' k (⟨r.val * 128 + d'.val, by omega⟩ : Fin 16384) rfl, maximumf_apply,
    addf_apply, addf_apply, mulf_apply, broadcastTo_11c_abc_apply, broadcastTo_11c_abc_apply,
    shapeCast_c_11c_apply, broadcast_apply]
  show max _ (Ideal.ofBits .f32 0x00000000#32) * _ = _
  rw [Ideal.ofBits_zero_f32]

/-! ## The mask -/

/-- A one-bit word widened to 32 bits and read as a signed number is one or zero. -/
theorem bit_toReal (b : BitVec 1) : (((b.setWidth 32).toInt : ℝ) : EReal) = if b = 1#1 then 1 else 0 := by
  rcases BitVec.eq_zero_or_eq_one b with h | h
  · subst h
    have h0 : ((0#1 : BitVec 1).setWidth 32).toInt = 0 := by decide
    rw [h0, if_neg (by decide)]; simp
  · subst h
    have h1 : ((1#1 : BitVec 1).setWidth 32).toInt = 1 := by decide
    rw [h1, if_pos rfl]; simp

/-- The comparison "at most" of two extended reals answers the bit one exactly when it holds. -/
theorem cmpf_ole_eq_one (x y : EReal) : FloatOps.cmpf (F := Ideal) (φ := .f32) .ole x y = 1#1 ↔ x ≤ y := by
  show BitVec.ofBool (decide (x ≤ y)) = 1#1 ↔ x ≤ y
  by_cases h : x ≤ y <;> simp [h]

/-- Row `r` of block `b` as a 32-bit word is its number `b * 128 + r`. -/
theorem rowWord (b r : Nat) :
    IntOp.addi (Scalar.muli (BitVec.ofNat 32 b) 128#32) (BitVec.ofNat 32 r) = BitVec.ofNat 32 (b * 128 + r) := by
  rw [BitVec.ofNat_add, BitVec.ofNat_mul]
  rfl

/-- Two numbers below `2 ^ 32` differ as 32-bit words exactly when they differ. -/
theorem ofNat_ne_iff (a b : Nat) (ha : a < 2 ^ 32) (hb : b < 2 ^ 32) :
    BitVec.ofNat 32 a ≠ BitVec.ofNat 32 b ↔ a ≠ b := by
  rw [Ne, ← BitVec.toNat_inj, BitVec.toNat_ofNat, BitVec.toNat_ofNat, Nat.mod_eq_of_lt ha, Nat.mod_eq_of_lt hb]

/-- A bitwise and of two integer vectors at an index. -/
theorem andi_at {s : Shape} {w : Nat} (x y : IVec s w) (j : s.Idx) : andi x y j = IntOp.andi (x j) (y j) := rfl
/-- An integer comparison of two vectors at an index. -/
theorem cmpi_at {s : Shape} {w : Nat} (p : CmpIPredicate) (x y : IVec s w) (j : s.Idx) :
    cmpi p x y j = IntOp.cmpi p (x j) (y j) := rfl
/-- An integer sum of two vectors at an index. -/
theorem addi_at {s : Shape} {w : Nat} (x y : IVec s w) (j : s.Idx) : addi x y j = IntOp.addi (x j) (y j) := rfl

/-- The mask bit of the pair (source row `r`, destination row `d'`) at grid point `i` is one exactly when the
    squared length of the relative position is at most the squared radius and the two global row numbers differ. -/
theorem mask_eq_one (i : grid0.Coords) (v0 v1 : Vec Ideal S128x2 .f32) (r d' : Fin 128) :
    k0_pay4 (F := Ideal) i v0 v1 (ix2 r d') = 1#1 ↔
      (k0_pay2 (F := Ideal) v0 v1 (ix2 r d') * k0_pay2 (F := Ideal) v0 v1 (ix2 r d')
          + k0_pay3 (F := Ideal) v0 v1 (ix2 r d') * k0_pay3 (F := Ideal) v0 v1 (ix2 r d') ≤ Cert.EdgeSpec.rad2)
        ∧ (i 0).val * 128 + r.val ≠ (i 1).val * 128 + d'.val := by
  have hi0 : (i 0).val < 16 := (i 0).isLt
  have hi1 : (i 1).val < 16 := (i 1).isLt
  unfold k0_pay4
  rw [andi_at, IntOp.andi_eq_one, cmpf_apply, cmpf_ole_eq_one, cmpi_at, IntOp.cmpi_ne, addf_apply, mulf_apply, mulf_apply,
    addi_at, addi_at, broadcast_apply, broadcast_apply, broadcast_apply, iota_single_apply, iota_single_apply]
  show (_ ≤ Cert.EdgeSpec.rad2 ∧
      IntOp.addi (Scalar.muli (BitVec.ofNat 32 (i 0).val) 128#32) (BitVec.ofNat 32 r.val)
        ≠ IntOp.addi (Scalar.muli (BitVec.ofNat 32 (i 1).val) 128#32) (BitVec.ofNat 32 d'.val)) ↔ _
  rw [rowWord, rowWord, ofNat_ne_iff _ _ (by omega) (by omega)]

/-- The mask bit read as a number is the specification's keep factor of the pair. -/
theorem keep_at (i : grid0.Coords) (v0 v1 : Vec Ideal S128x2 .f32) (r d' : Fin 128) :
    ((((k0_pay4 (F := Ideal) i v0 v1 (ix2 r d')).setWidth 32).toInt : ℝ) : EReal)
      = Cert.EdgeSpec.keepOf (k0_pay2 (F := Ideal) v0 v1 (ix2 r d')) (k0_pay3 (F := Ideal) v0 v1 (ix2 r d'))
          ((i 0).val * 128 + r.val ≠ (i 1).val * 128 + d'.val) := by
  rw [bit_toReal]
  unfold Cert.EdgeSpec.keepOf
  exact if_congr (mask_eq_one i v0 v1 r d') rfl rfl

/-! ## The stored value is the specification's edge feature -/

/-- At grid point `i` the value the body stores, at row `r` and column `d' * 32 + f`, is feature `f` of the edge from
    source row `r` of the first block of positions to destination row `d'` of the second: the relative position is the
    difference of the two rows' positions, and the pair is a loop exactly when the two global row numbers agree. -/
theorem stored_at (i : grid0.Coords) (v0 v1 : Vec Ideal S128x2 .f32) (v31 : Vec Ideal S2x32 .f32)
    (v32 : Vec Ideal S1x32 .f32) (v56 : Vec Ideal S32x32 .f32) (v57 : Vec Ideal S1x32 .f32) (r d' : Fin 128) (f : Fin 32) :
    k0_pay1 (F := Ideal) (k0_pay4 i v0 v1) (k0_pay5 v32) (k0_pay6 v0 v1 v31) (k0_pay7 v31) (k0_pay8 v0 v1) v56 v57
        (ix2 r (⟨d'.val * 32 + f.val, by omega⟩ : Fin 4096))
      = Cert.EdgeSpec.edgeOf (v1 (ix2 d' (0 : Fin 2)) - v0 (ix2 r (0 : Fin 2)))
          (v1 (ix2 d' (1 : Fin 2)) - v0 (ix2 r (1 : Fin 2)))
          ((i 0).val * 128 + r.val ≠ (i 1).val * 128 + d'.val) v31 (fun k => v32 (ix2 (0 : Fin 1) k)) v56
          (v57 (ix2 (0 : Fin 1) f)) f := by
  rw [stored_of _ _ _ _ _ _ _ r d' f _ rfl, keep_at]
  unfold Cert.EdgeSpec.edgeOf Cert.EdgeSpec.hiddenOf
  simp only [xw_at, ybc_at, w1row1_at, bias1_at, relx_at, rely_at]

/-- The same with the column a variable `q` known to be `d' * 32 + f`. -/
theorem stored_at_of (i : grid0.Coords) (v0 v1 : Vec Ideal S128x2 .f32) (v31 : Vec Ideal S2x32 .f32)
    (v32 : Vec Ideal S1x32 .f32) (v56 : Vec Ideal S32x32 .f32) (v57 : Vec Ideal S1x32 .f32) (r d' : Fin 128) (f : Fin 32)
    (q : Fin 4096) (hq : q.val = d'.val * 32 + f.val) :
    k0_pay1 (F := Ideal) (k0_pay4 i v0 v1) (k0_pay5 v32) (k0_pay6 v0 v1 v31) (k0_pay7 v31) (k0_pay8 v0 v1) v56 v57
        (ix2 r q)
      = Cert.EdgeSpec.edgeOf (v1 (ix2 d' (0 : Fin 2)) - v0 (ix2 r (0 : Fin 2)))
          (v1 (ix2 d' (1 : Fin 2)) - v0 (ix2 r (1 : Fin 2)))
          ((i 0).val * 128 + r.val ≠ (i 1).val * 128 + d'.val) v31 (fun k => v32 (ix2 (0 : Fin 1) k)) v56
          (v57 (ix2 (0 : Fin 1) f)) f := by
  rw [show q = (⟨d'.val * 32 + f.val, by omega⟩ : Fin 4096) from Fin.ext hq]
  exact stored_at i v0 v1 v31 v32 v56 v57 r d' f

end Cert.KernelIdeal.PayloadAt

end
-- ==== Proof.WholeBlocks.lean ====
/-
  The kernel's tiles, read against the specification.

  The grid has 16 × 16 points. At point `t` the kernel is handed the block of 128 source rows `t / 16` and the
  block of 128 destination rows `t % 16` of the position array, the two weight matrices and the two bias rows
  whole, and writes the 128 × 4096 tile at block index `(t / 16, t % 16)` of the flat result `[2048, 65536]`,
  whose column `d * 32 + f` holds feature `f` of the edge into destination `d`. Given what the stored tile is at
  an element (a hypothesis here: the edge feature of the two rows' relative position, not a loop when the two
  global row numbers differ), every write-back is its block of ONE array, the flat arrangement of the
  specification's edge-feature map, and the 256 blocks tile the array: so that is what the array ends holding.
-/
import proofs.«127819_j63471026700851_2_alg».proof.Proof.TileDatI
import proofs.«127819_j63471026700851_2_alg».proof.Proof.EdgeSpec
import Idealize.ShloMosaic.Lib.Pipeline.Value
import Idealize.ShloMosaic.Lib.ValueIdx

noncomputable section

namespace Cert.KernelIdeal.Whole

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat)
open Cert.EdgeSpec

/-- A column `d' * 32 + f` of the tile is below its width. -/
theorem col_lt (d' : Fin 128) (f : Fin 32) : d'.val * 32 + f.val < 4096 := by
  have := d'.isLt; have := f.isLt; omega

/-- What the stored tile is at an element, as the final step takes it: at grid coordinates `i`, from source block
    `v0`, destination block `v1`, the weights and the bias rows, row `r` and column `d' * 32 + f` of the tile hold feature
    `f` of the edge with relative position `v1 d' − v0 r`, which is not a loop when the two global row numbers differ. -/
abbrev StoredAt : Prop :=
  ∀ (i : grid0.Coords) (v0 v1 : Vec Ideal S128x2 .f32) (v31 : Vec Ideal S2x32 .f32) (v32 : Vec Ideal S1x32 .f32)
    (v56 : Vec Ideal S32x32 .f32) (v57 : Vec Ideal S1x32 .f32) (r d' : Fin 128) (f : Fin 32),
    Tile.stored (F := Ideal) i v0 v1 v31 v32 v56 v57
        (ix2 r (⟨d'.val * 32 + f.val, col_lt d' f⟩ : Fin 4096))
      = edgeOf (v1 (ix2 d' (0 : Fin 2)) - v0 (ix2 r (0 : Fin 2))) (v1 (ix2 d' (1 : Fin 2)) - v0 (ix2 r (1 : Fin 2)))
          ((i 0).val * 128 + r.val ≠ (i 1).val * 128 + d'.val) v31 (fun k => v32 (ix2 (0 : Fin 1) k)) v56
          (v57 (ix2 (0 : Fin 1) f)) f

/-! ## The grid's coordinates and the windows' block indices, decided once over the 256 points -/

theorem idx_facts : ∀ t : Fin cfg0.N,
    (grid0.coords t (0 : Fin 2)).val = t.val / 16 ∧ (grid0.coords t (1 : Fin 2)).val = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 16 ∧ win0_6.index t (1 : Fin 2) = t.val % 16 :=
  (by decide +kernel : ∀ t : Fin grid0.N, _)

/-! ## The input blocks as parts of their arrays -/

variable (V : (c : Dev nD) → (b : Ref sig .tc) → Buf (Elt Ideal) ((c : Thread nD τ).loc b))

/-- The source window's block at point `t` is rows `128 (t / 16) … + 127` of the position array. -/
theorem blk0_apply (c : Dev nD) (t : Fin cfg0.N) (r : Fin 128) (a : Fin 2) (s : Fin 2048)
    (hs : s.val = t.val / 16 * 128 + r.val) :
    (iblk V c 0 t : Vec Ideal S128x2 .f32) (ix2 r a) = (V c main_arg1 : S2048x2.Idx → EReal) (ix2 s a) := by
  obtain ⟨-, -, e0, e1, -⟩ := idx_facts t
  unfold iblk
  rw [View.read_apply]
  show V c main_arg1 _ = V c main_arg1 _
  congr 1
  funext ax
  apply Fin.ext
  match ax with
  | ⟨0, _⟩ => show win0_0.index t (0 : Fin 2) * 128 + 1 * r.val = s.val; rw [e0, hs]; omega
  | ⟨1, _⟩ => show win0_0.index t (1 : Fin 2) * 2 + 1 * a.val = a.val; rw [e1]; omega

/-- The destination window's block at point `t` is rows `128 (t % 16) … + 127` of the position array. -/
theorem blk1_apply (c : Dev nD) (t : Fin cfg0.N) (r : Fin 128) (a : Fin 2) (d : Fin 2048)
    (hd : d.val = t.val % 16 * 128 + r.val) :
    (iblk V c 1 t : Vec Ideal S128x2 .f32) (ix2 r a) = (V c main_arg1 : S2048x2.Idx → EReal) (ix2 d a) := by
  obtain ⟨-, -, -, -, e0, e1, -⟩ := idx_facts t
  unfold iblk
  rw [View.read_apply]
  show V c main_arg1 _ = V c main_arg1 _
  congr 1
  funext ax
  apply Fin.ext
  match ax with
  | ⟨0, _⟩ => show win0_1.index t (0 : Fin 2) * 128 + 1 * r.val = d.val; rw [e0, hd]; omega
  | ⟨1, _⟩ => show win0_1.index t (1 : Fin 2) * 2 + 1 * a.val = a.val; rw [e1]; omega

/-- The first weight matrix is staged whole. -/
theorem blk2_eq (c : Dev nD) (t : Fin cfg0.N) :
    (iblk V c 2 t : Vec Ideal S2x32 .f32) = (V c main_arg2 : S2x32.Idx → EReal) := by
  obtain ⟨-, -, -, -, -, -, e0, e1, -⟩ := idx_facts t
  funext j
  unfold iblk
  rw [View.read_apply]
  show V c main_arg2 _ = V c main_arg2 j
  congr 1
  funext ax
  apply Fin.ext
  match ax with
  | ⟨0, _⟩ => show win0_2.index t (0 : Fin 2) * 2 + 1 * (j 0).val = (j 0).val; rw [e0]; omega
  | ⟨1, _⟩ => show win0_2.index t (1 : Fin 2) * 32 + 1 * (j 1).val = (j 1).val; rw [e1]; omega

/-- The first bias row is staged whole. -/
theorem blk3_eq (c : Dev nD) (t : Fin cfg0.N) :
    (iblk V c 3 t : Vec Ideal S1x32 .f32) = (V c main_v0 : S1x32.Idx → EReal) := by
  obtain ⟨-, -, -, -, -, -, -, -, e0, e1, -⟩ := idx_facts t
  funext j
  unfold iblk
  rw [View.read_apply]
  show V c main_v0 _ = V c main_v0 j
  congr 1
  funext ax
  apply Fin.ext
  match ax with
  | ⟨0, _⟩ => show win0_3.index t (0 : Fin 2) * 1 + 1 * (j 0).val = (j 0).val; rw [e0]; omega
  | ⟨1, _⟩ => show win0_3.index t (1 : Fin 2) * 32 + 1 * (j 1).val = (j 1).val; rw [e1]; omega

/-- The second weight matrix is staged whole. -/
theorem blk4_eq (c : Dev nD) (t : Fin cfg0.N) :
    (iblk V c 4 t : Vec Ideal S32x32 .f32) = (V c main_arg4 : S32x32.Idx → EReal) := by
  obtain ⟨-, -, -, -, -, -, -, -, -, -, e0, e1, -⟩ := idx_facts t
  funext j
  unfold iblk
  rw [View.read_apply]
  show V c main_arg4 _ = V c main_arg4 j
  congr 1
  funext ax
  apply Fin.ext
  match ax with
  | ⟨0, _⟩ => show win0_4.index t (0 : Fin 2) * 32 + 1 * (j 0).val = (j 0).val; rw [e0]; omega
  | ⟨1, _⟩ => show win0_4.index t (1 : Fin 2) * 32 + 1 * (j 1).val = (j 1).val; rw [e1]; omega

/-- The second bias row is staged whole. -/
theorem blk5_eq (c : Dev nD) (t : Fin cfg0.N) :
    (iblk V c 5 t : Vec Ideal S1x32 .f32) = (V c main_v1 : S1x32.Idx → EReal) := by
  obtain ⟨-, -, -, -, -, -, -, -, -, -, -, -, e0, e1, -⟩ := idx_facts t
  funext j
  unfold iblk
  rw [View.read_apply]
  show V c main_v1 _ = V c main_v1 j
  congr 1
  funext ax
  apply Fin.ext
  match ax with
  | ⟨0, _⟩ => show win0_5.index t (0 : Fin 2) * 1 + 1 * (j 0).val = (j 0).val; rw [e0]; omega
  | ⟨1, _⟩ => show win0_5.index t (1 : Fin 2) * 32 + 1 * (j 1).val = (j 1).val; rw [e1]; omega

/-! ## The tile at an element -/

theorem hz : (![0, 0] : Fin 2 → Nat) = fun _ => 0 := funext fun a => by fin_cases a <;> rfl

/-- The body's one store covers the output buffer and its loads read whole buffers: what the buffer holds after
    the body is the stored value of the six blocks. -/
theorem tileOut_eq (i : grid0.Coords) (xs xd : Vec Ideal S128x2 .f32) (w1 : Vec Ideal S2x32 .f32) (b1 : Vec Ideal S1x32 .f32)
    (w2 : Vec Ideal S32x32 .f32) (b2 : Vec Ideal S1x32 .f32) :
    tileOut i xs xd w1 b1 w2 b2 = stored i xs xd w1 b1 w2 b2 := by
  unfold tileOut
  rw [View.canon_unit_zero hz]
  simp only [View.ld_unit_zero (S := S128x2) hz, View.ld_unit_zero (S := S2x32) hz, View.ld_unit_zero (S := S1x32) hz,
    View.ld_unit_zero (S := S32x32) hz]

/-- The edge feature depends on the "not a loop" proposition only through its truth. -/
theorem edgeOf_congr (rx ry : EReal) (p q : Prop) [Decidable p] [Decidable q] (h : p ↔ q) (W1 : Mat1) (b1 : Fin 32 → EReal)
    (W2 : Mat2) (b2f : EReal) (f : Fin 32) : edgeOf rx ry p W1 b1 W2 b2f f = edgeOf rx ry q W1 b1 W2 b2f f := by
  have hk : keepOf rx ry p = keepOf rx ry q := by
    unfold keepOf
    exact if_congr (and_congr_right' h) rfl rfl
  unfold edgeOf
  rw [hk]

/-- The stored tile at row `r`, column `d' * 32 + f`, when the two position blocks are rows `s` and `d` onwards of one
    position array, the weights are the weight arrays and the bias rows hold the bias vectors: feature `f` of the edge
    `s → d` of the whole graph. -/
theorem edge_of_blocks (hstored : StoredAt) (i : grid0.Coords) (v0 v1 : Vec Ideal S128x2 .f32) (v31 : Vec Ideal S2x32 .f32)
    (v32 : Vec Ideal S1x32 .f32) (v56 : Vec Ideal S32x32 .f32) (v57 : Vec Ideal S1x32 .f32)
    (pos : Pos) (W1 : Mat1) (b1 : Bias) (W2 : Mat2) (b2 : Bias) (r d' : Fin 128) (f : Fin 32) (s d : Fin 2048)
    (hs : s.val = (i 0).val * 128 + r.val) (hd : d.val = (i 1).val * 128 + d'.val)
    (h0 : ∀ a : Fin 2, v0 (ix2 r a) = pos (ix2 s a)) (h1 : ∀ a : Fin 2, v1 (ix2 d' a) = pos (ix2 d a))
    (h2 : v31 = W1) (h3 : ∀ k : Fin 32, v32 (ix2 (0 : Fin 1) k) = b1 (ix1 k)) (h4 : v56 = W2)
    (h5 : ∀ k : Fin 32, v57 (ix2 (0 : Fin 1) k) = b2 (ix1 k)) :
    Tile.stored (F := Ideal) i v0 v1 v31 v32 v56 v57
        (ix2 r (⟨d'.val * 32 + f.val, col_lt d' f⟩ : Fin 4096))
      = edge pos W1 b1 W2 b2 s d f := by
  have hb : (fun k => v32 (ix2 (0 : Fin 1) k)) = fun k => b1 (ix1 k) := funext h3
  rw [hstored i v0 v1 v31 v32 v56 v57 r d' f, h0, h0, h1, h1, h5 f, hb, h2, h4]
  unfold edge relx rely
  exact edgeOf_congr _ _ _ _ (not_congr (by rw [Fin.ext_iff, hs, hd])) _ _ _ _ _

/-! ## The flat result -/

/-- The specification's edge-feature map laid out flat: row `s`, column `d * 32 + f`. -/
def G2 (pos : Pos) (W1 : Mat1) (b1 : Bias) (W2 : Mat2) (b2 : Bias) : S2048x65536.Idx → EReal := fun j =>
  edge pos W1 b1 W2 b2 (j 0) ⟨(j 1).val / 32, by have := idx2_lt1 j; omega⟩ ⟨(j 1).val % 32, Nat.mod_lt _ (by decide)⟩

theorem G2_at (pos : Pos) (W1 : Mat1) (b1 : Bias) (W2 : Mat2) (b2 : Bias) (s : Fin 2048) (Q : Fin 65536) (d : Fin 2048)
    (f : Fin 32) (hQ : Q.val = d.val * 32 + f.val) : G2 pos W1 b1 W2 b2 (ix2 s Q) = edge pos W1 b1 W2 b2 s d f := by
  have hd : (⟨Q.val / 32, by have := Q.isLt; omega⟩ : Fin 2048) = d :=
    Fin.ext (by show Q.val / 32 = d.val; have := f.isLt; omega)
  have hf : (⟨Q.val % 32, Nat.mod_lt _ (by decide)⟩ : Fin 32) = f :=
    Fin.ext (by show Q.val % 32 = f.val; have := f.isLt; omega)
  show edge pos W1 b1 W2 b2 s ⟨Q.val / 32, _⟩ ⟨Q.val % 32, _⟩ = _
  rw [hd, hf]

variable (pos : Pos) (W1 : Mat1) (b1 : Bias) (W2 : Mat2) (b2 : Bias)

/-- An element of the tile the body leaves at point `t` is the flat result at the element's place in the array. -/
theorem tile_elem (hstored : StoredAt) (c : Dev nD)
    (hpos : (V c main_arg1 : S2048x2.Idx → EReal) = pos) (hW1 : (V c main_arg2 : S2x32.Idx → EReal) = W1)
    (hb1 : ∀ k : Fin 32, (V c main_v0 : S1x32.Idx → EReal) (ix2 (0 : Fin 1) k) = b1 (ix1 k))
    (hW2 : (V c main_arg4 : S32x32.Idx → EReal) = W2)
    (hb2 : ∀ k : Fin 32, (V c main_v1 : S1x32.Idx → EReal) (ix2 (0 : Fin 1) k) = b2 (ix1 k))
    (t : Fin cfg0.N) (y : S128x4096.Idx) (k : S2048x65536.Idx)
    (hk0 : (k 0).val = t.val / 16 * 128 + (y 0).val) (hk1 : (k 1).val = t.val % 16 * 4096 + (y 1).val) :
    Tile.stored (F := Ideal) (grid0.coords t) (iblk V c 0 t) (iblk V c 1 t) (iblk V c 2 t) (iblk V c 3 t) (iblk V c 4 t)
        (iblk V c 5 t) y = G2 pos W1 b1 W2 b2 k := by
  obtain ⟨g0, g1, -⟩ := idx_facts t
  have ht : t.val < 256 := lt_of_lt_of_eq (show t.val < grid0.N from t.isLt) N_0
  obtain ⟨r, q, rfl⟩ : ∃ (r : Fin 128) (q : Fin 4096), y = ix2 r q := ⟨y 0, y 1, eq_ix2 y⟩
  obtain ⟨s, Q, rfl⟩ : ∃ (s : Fin 2048) (Q : Fin 65536), k = ix2 s Q := ⟨k 0, k 1, eq_ix2 k⟩
  have hs : s.val = t.val / 16 * 128 + r.val := hk0
  have hQ : Q.val = t.val % 16 * 4096 + q.val := hk1
  obtain ⟨d', f, rfl⟩ : ∃ (d' : Fin 128) (f : Fin 32),
      q = (⟨d'.val * 32 + f.val, col_lt d' f⟩ : Fin 4096) :=
    ⟨⟨q.val / 32, by have := q.isLt; omega⟩, ⟨q.val % 32, Nat.mod_lt _ (by decide)⟩,
      Fin.ext (by show q.val = q.val / 32 * 32 + q.val % 32; omega)⟩
  have hQ' : Q.val = t.val % 16 * 4096 + (d'.val * 32 + f.val) := hQ
  rw [G2_at pos W1 b1 W2 b2 s Q (⟨t.val % 16 * 128 + d'.val, by have := d'.isLt; omega⟩ : Fin 2048) f
    (by show Q.val = (t.val % 16 * 128 + d'.val) * 32 + f.val; omega)]
  exact edge_of_blocks hstored (grid0.coords t) (iblk V c 0 t) (iblk V c 1 t) (iblk V c 2 t) (iblk V c 3 t) (iblk V c 4 t)
    (iblk V c 5 t) pos W1 b1 W2 b2 r d' f s _
    (by rw [g0]; exact hs) (by rw [g1])
    (fun a => (blk0_apply V c t r a s hs).trans (congrFun hpos _))
    (fun a => (blk1_apply V c t d' a _ rfl).trans (congrFun hpos _))
    ((blk2_eq V c t).trans hW1)
    (fun k => (congrFun (blk3_eq V c t) _).trans (hb1 k))
    ((blk4_eq V c t).trans hW2)
    (fun k => (congrFun (blk5_eq V c t) _).trans (hb2 k))

/-- WHAT POINT `t` WRITES BACK is block `t` of the flat result. -/
theorem flushed_eq (hstored : StoredAt) (c : Dev nD)
    (hpos : (V c main_arg1 : S2048x2.Idx → EReal) = pos) (hW1 : (V c main_arg2 : S2x32.Idx → EReal) = W1)
    (hb1 : ∀ k : Fin 32, (V c main_v0 : S1x32.Idx → EReal) (ix2 (0 : Fin 1) k) = b1 (ix1 k))
    (hW2 : (V c main_arg4 : S32x32.Idx → EReal) = W2)
    (hb2 : ∀ k : Fin 32, (V c main_v1 : S1x32.Idx → EReal) (ix2 (0 : Fin 1) k) = b2 (ix1 k))
    (t : Fin cfg0.N) :
    (dat V c).flushed 6 t = ((cfg0.win 6).blk t).view.read (Elt Ideal) (G2 pos W1 b1 W2 b2) := by
  obtain ⟨-, -, -, -, -, -, -, -, -, -, -, -, -, -, e0, e1⟩ := idx_facts t
  show (cfg0.win 6).cut (grid0.coords t) ((dat V c).after 6 t) = _
  rw [after_6, tileOut_eq]
  funext j
  rw [View.read_apply]
  refine tile_elem V pos W1 b1 W2 b2 hstored c hpos hW1 hb1 hW2 hb2 t _ _ ?_ ?_
  · show win0_6.index t (0 : Fin 2) * 128 + 1 * (j 0).val = t.val / 16 * 128 + (j 0).val
    rw [e0]; omega
  · show win0_6.index t (1 : Fin 2) * 4096 + 1 * (j 1).val = t.val % 16 * 4096 + (j 1).val
    rw [e1]; omega

/-! ## The 256 blocks tile the array -/

/-- An index of the array is in point `t`'s block iff each coordinate is in the block's range on its axis. -/
theorem mem_blk6 (t : Fin cfg0.N) (i : S2048x65536.Idx) :
    i ∈ ((cfg0.win 6).blk t).view.set ↔ ∀ a : Fin 2, win0_6.index t a * S128x4096.size a ≤ (i a).val
      ∧ (i a).val < win0_6.index t a * S128x4096.size a + S128x4096.size a := by
  show i ∈ ((View.whole main_v2).slice (win0_6.rect t)).set ↔ _
  rw [View.set_slice_whole, Rect.mem_set_unit]
  exact Iff.rfl

/-- Row `s`, column `q` lies in the block of the point with coordinates `(s / 128, q / 4096)`. -/
theorem cover (i : S2048x65536.Idx) :
    ∃ t : Fin cfg0.N, (cfg0.win 6).flush t = true ∧ i ∈ ((cfg0.win 6).blk t).view.set := by
  have hi0 : (i 0).val < 2048 := idx2_lt0 i
  have hi1 : (i 1).val < 65536 := idx2_lt1 i
  obtain ⟨t, ht⟩ : ∃ t : Fin cfg0.N, t.val = (i 0).val / 128 * 16 + (i 1).val / 4096 :=
    ⟨⟨(i 0).val / 128 * 16 + (i 1).val / 4096, by show _ < grid0.N; rw [N_0]; omega⟩, rfl⟩
  obtain ⟨-, -, -, -, -, -, -, -, -, -, -, -, -, -, e0, e1⟩ := idx_facts t
  refine ⟨t, flush0_6 t, ?_⟩
  rw [mem_blk6]
  intro a
  match a with
  | ⟨0, _⟩ =>
    show win0_6.index t (0 : Fin 2) * 128 ≤ (i 0).val ∧ (i 0).val < win0_6.index t (0 : Fin 2) * 128 + 128
    rw [e0, ht]; omega
  | ⟨1, _⟩ =>
    show win0_6.index t (1 : Fin 2) * 4096 ≤ (i 1).val ∧ (i 1).val < win0_6.index t (1 : Fin 2) * 4096 + 4096
    rw [e1, ht]; omega

/-- THE RESULT ARRAY AT THE REGION'S EXIT is the flat result. -/
theorem final (hstored : StoredAt) (c : Dev nD)
    (hpos : (V c main_arg1 : S2048x2.Idx → EReal) = pos) (hW1 : (V c main_arg2 : S2x32.Idx → EReal) = W1)
    (hb1 : ∀ k : Fin 32, (V c main_v0 : S1x32.Idx → EReal) (ix2 (0 : Fin 1) k) = b1 (ix1 k))
    (hW2 : (V c main_arg4 : S32x32.Idx → EReal) = W2)
    (hb2 : ∀ k : Fin 32, (V c main_v1 : S1x32.Idx → EReal) (ix2 (0 : Fin 1) k) = b2 (ix1 k)) :
    (dat V c).arrAt 6 cfg0.N = G2 pos W1 b1 W2 b2 :=
  (dat V c).arrAt_eq_of_cover 6 (G2 pos W1 b1 W2 b2)
    (fun t _ => flushed_eq V pos W1 b1 W2 b2 hstored c hpos hW1 hb1 hW2 hb2 t) cover

end Cert.KernelIdeal.Whole

end
-- ==== Proof.WholeResult.lean ====
/-
  The kernel program's result array is the specification's edge-feature map.

  Before the kernel region the host only restates the two bias vectors as rows (two reshapes of `[32]` to
  `[1, 32]`), so at the region's entry the position array and the two weight matrices are as launched and element
  `k` of each bias row is element `k` of its bias vector. The region leaves the flat array `[2048, 65536]` holding,
  in row `s` and column `d * 32 + f`, feature `f` of the edge `s → d`; after it the host reshapes that array to
  `[2048, 2048, 32]`, and a reshape keeps row-major positions: `s * 65536 + (d * 32 + f) = (s * 2048 + d) * 32 + f`.
-/
import proofs.«127819_j63471026700851_2_alg».proof.Proof.TileRunI
import proofs.«127819_j63471026700851_2_alg».proof.Proof.WholeBlocks
import Idealize.ShloMosaic.Lib.StableHlo.Run
import Idealize.ShloMosaic.Lib.Pipeline.Value
import Idealize.ShloMosaic.Lib.ValueIdx

noncomputable section

namespace Cert.KernelIdeal.Whole

open Cert.KernelIdeal Cert.KernelIdeal.Gen Cert.KernelIdeal.Tile
open Idealize.ShloMosaic Idealize.ShloMosaic.TcCoe Idealize.ShloMosaic.ValueIdx Idealize.SL.Sem
open Idealize.ShloMosaic.StableHlo
open Cert.EdgeSpec

variable (m : (ℓ : Loc nD τ sig) → Buf (Elt Ideal) ℓ) (ρ : Dev nD → PrngReg)

/-! ## The region's entry: the host has only restated the bias vectors as rows -/

theorem entry_pos (c : Dev nD) :
    (V1 m ρ c main_arg1 : S2048x2.Idx → EReal) = m ((c : Thread nD τ).loc main_arg1) := by
  show StableHlo.after hostOps0 (W0 m ρ c) (Proc.devRef .tc main_arg1) = _
  after_results

theorem entry_W1 (c : Dev nD) :
    (V1 m ρ c main_arg2 : S2x32.Idx → EReal) = m ((c : Thread nD τ).loc main_arg2) := by
  show StableHlo.after hostOps0 (W0 m ρ c) (Proc.devRef .tc main_arg2) = _
  after_results

theorem entry_W2 (c : Dev nD) :
    (V1 m ρ c main_arg4 : S32x32.Idx → EReal) = m ((c : Thread nD τ).loc main_arg4) := by
  show StableHlo.after hostOps0 (W0 m ρ c) (Proc.devRef .tc main_arg4) = _
  after_results

/-- A vector restated as a one-row matrix reads, in its row at `k`, the vector at `k`. -/
theorem row_apply (x : S32.Idx → EReal) (h : S32.ShapeCasts S1x32) (k : Fin 32) :
    shapeCast S1x32 x h (ix2 (0 : Fin 1) k) = x (ix1 k) :=
  shapeCast_apply x h _ _ (by
    rw [Shape.rowMajor_val_one, Shape.rowMajor_val_two]
    show k.val = 0 * 32 + k.val
    omega)

theorem entry_b1 (c : Dev nD) (k : Fin 32) :
    (V1 m ρ c main_v0 : S1x32.Idx → EReal) (ix2 (0 : Fin 1) k) = m ((c : Thread nD τ).loc main_arg3) (ix1 k) := by
  have e : (V1 m ρ c main_v0 : S1x32.Idx → EReal)
      = shapeCast S1x32 (m ((c : Thread nD τ).loc main_arg3) : S32.Idx → EReal) shapeCasts_S32_S1x32 := by
    show StableHlo.after hostOps0 (W0 m ρ c) (Proc.devRef .tc main_v0) = _
    after_results
    rfl
  rw [e]
  exact row_apply _ _ k

theorem entry_b2 (c : Dev nD) (k : Fin 32) :
    (V1 m ρ c main_v1 : S1x32.Idx → EReal) (ix2 (0 : Fin 1) k) = m ((c : Thread nD τ).loc main_arg5) (ix1 k) := by
  have e : (V1 m ρ c main_v1 : S1x32.Idx → EReal)
      = shapeCast S1x32 (m ((c : Thread nD τ).loc main_arg5) : S32.Idx → EReal) shapeCasts_S32_S1x32 := by
    show StableHlo.after hostOps0 (W0 m ρ c) (Proc.devRef .tc main_v1) = _
    after_results
    rfl
  rw [e]
  exact row_apply _ _ k

/-! ## The end: the flat array reshaped -/

theorem tail_eq (c : Dev nD) :
    (W3 m ρ c (Proc.devRef .tc main_v3) : S2048x2048x32.Idx → EReal)
      = shapeCast S2048x2048x32 (W2 m ρ c (Proc.devRef .tc main_v2) : S2048x65536.Idx → EReal)
          shapeCasts_S2048x65536_S2048x2048x32 := by
  show StableHlo.after hostOps1 (W2 m ρ c) (Proc.devRef .tc main_v3) = _
  after_results
  rfl

/-- A flat `[2048, 65536]` array reshaped to `[2048, 2048, 32]` reads, at `(s, d, f)`, row `s` and column
    `d * 32 + f`. -/
theorem unflatten_apply (x : S2048x65536.Idx → EReal) (h : S2048x65536.ShapeCasts S2048x2048x32) (s d : Fin 2048)
    (f : Fin 32) (Q : Fin 65536) (hQ : Q.val = d.val * 32 + f.val) :
    shapeCast S2048x2048x32 x h (ix3 s d f) = x (ix2 s Q) :=
  shapeCast_apply x h _ _ (by
    rw [Shape.rowMajor_val_two, Shape.rowMajor_val_three]
    show s.val * 65536 + Q.val = (s.val * 2048 + d.val) * 32 + f.val
    rw [hQ]
    omega)

/-- THE RESULT BUFFER AT THE END is the specification's edge-feature map of the launch contents of the five
    arrays, given what the stored tile is at an element. -/
theorem result_is_spec (hstored : StoredAt) (c : Dev nD) :
    (W3 (F := Ideal) m ρ c (Proc.devRef .tc main_v3) : S2048x2048x32.Idx → EReal)
      = G (m ((c : Thread nD τ).loc main_arg1)) (m ((c : Thread nD τ).loc main_arg2)) (m ((c : Thread nD τ).loc main_arg3))
          (m ((c : Thread nD τ).loc main_arg4)) (m ((c : Thread nD τ).loc main_arg5)) := by
  rw [tail_eq, W2_result,
    final (V1 m ρ) (m ((c : Thread nD τ).loc main_arg1)) (m ((c : Thread nD τ).loc main_arg2))
      (m ((c : Thread nD τ).loc main_arg3)) (m ((c : Thread nD τ).loc main_arg4)) (m ((c : Thread nD τ).loc main_arg5))
      hstored c (entry_pos m ρ c) (entry_W1 m ρ c) (entry_b1 m ρ c) (entry_W2 m ρ c) (entry_b2 m ρ c)]
  funext j
  obtain ⟨s, d, f, rfl⟩ : ∃ (s d : Fin 2048) (f : Fin 32), j = ix3 s d f := ⟨j 0, j 1, j 2, eq_ix3 j⟩
  have hlt : d.val * 32 + f.val < 65536 := by have := d.isLt; have := f.isLt; omega
  rw [unflatten_apply _ _ s d f ⟨d.val * 32 + f.val, hlt⟩ rfl, G2_at _ _ _ _ _ s _ d f rfl, G_ix3]

end Cert.KernelIdeal.Whole

end
-- ==== Proof.lean ====
/-
  The kernel computes, tile by tile on a 16 × 16 grid, the [2048, 2048, 32] tensor of edge features of a radius
  graph over 2048 planar points, and the reference computes it whole. For a source node `s` and a destination
  node `d` let `rel = pos d − pos s`; the feature vector of the edge is the second affine layer of the rectified
  first affine layer of `rel`, kept when `|rel|² ≤ r²` and `s ≠ d` and zeroed otherwise (`Cert.EdgeSpec.G`).

  On the extended reals the two programs are that one function of the argument arrays. They differ only in how
  sums are grouped (the reference folds the two squares and the two first-layer products from a zero, the kernel
  adds them directly; the matrix products are the same finite sums), in the kernel's changes of float format,
  which are the identity there, and in how the zero/one mask is converted to a float; no law used needs the
  inputs to be finite, so the precondition is never opened.

  The three frames: the kernel's run is two host reshapes, the tiled region, one host reshape, and leaves the six
  argument arrays as launched (the position array is read through two windows of the region and is held there at
  two half shares); the reference is straight-line host code. The idealization rewrote nothing, so `preserves`
  is trivial.
-/
import proofs.«127819_j63471026700851_2_alg».proof.Defs
import proofs.«127819_j63471026700851_2_alg».proof.Proof.Gen.Kernel
import proofs.«127819_j63471026700851_2_alg».proof.Proof.Gen.KernelIdeal
import proofs.«127819_j63471026700851_2_alg».proof.Proof.Gen.ReferenceIdeal
import proofs.«127819_j63471026700851_2_alg».proof.Proof.Gen.Pre_finite_inputs
import proofs.«127819_j63471026700851_2_alg».proof.Proof.TileRunK
import proofs.«127819_j63471026700851_2_alg».proof.Proof.TileRunI
import proofs.«127819_j63471026700851_2_alg».proof.Proof.RefIsSpec
import proofs.«127819_j63471026700851_2_alg».proof.Proof.PayloadAt
import proofs.«127819_j63471026700851_2_alg».proof.Proof.WholeResult

noncomputable section

namespace Cert.Proof

open Idealize.ShloMosaic Idealize.ShloMosaic.TcCoe Idealize.SL.Sem

/-- The word-level kernel runs to the end and leaves its arguments as launched. -/
theorem frame_kernel : Cert.frame_Kernel := fun m ρ _ =>
  (θ_run Cert.Kernel.defs _ _).mono (fun _ h c => (h c).2) (Cert.Kernel.Tile.run_main (F := Bits) m ρ)

/-- So does the idealized kernel. -/
theorem frame_kernel_ideal : Cert.frame_KernelIdeal := fun m ρ _ =>
  (θ_run Cert.KernelIdeal.defs _ _).mono (fun _ h c => (h c).2) (Cert.KernelIdeal.Tile.run_main (F := Ideal) m ρ)

/-- The reference is straight-line host code: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the edge-feature tensor `Cert.EdgeSpec.G` of their (agreeing) arguments: the kernel by
    its run, whose result buffer is the reshaped array of tiles, the reference by its run read one operation at a time. -/
theorem algebraic : Cert.algebraic_KernelIdeal_ReferenceIdeal := by
  intro m ρ m' ρ' _ hagree
  refine ⟨fun c => Cert.EdgeSpec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_is_spec m ρ
          (fun i v0 v1 v31 v32 v56 v57 r d' f => Cert.KernelIdeal.PayloadAt.stored_at i v0 v1 v31 v32 v56 v57 r d' f) c), (h c).2⟩)
      (Cert.KernelIdeal.Tile.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v28_eq, Cert.ReferenceIdeal.RefValue.ref_is_spec,
      (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
